-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S8192 : Shape := ⟨1, ![8192]⟩
abbrev S15 : Shape := ⟨1, ![15]⟩
abbrev S2x262144 : Shape := ⟨2, ![2, 262144]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S15 : S_.BroadcastsInDim S15 (![] : Fin 0 → Fin S15.rank)
  reducesTo_S15_S_d0 : S15.ReducesTo [0] S_

variable [Facts]

def fn_part1 {F : FTy → Type} [FloatOps F] (main_v13 : IVec S_ 1) (main_v16 : IVec S15 1) : IVec S_ 1 :=
  let main_c_5 : IVec S_ 1 := constantI S_ 1 1#1
  let main_v17 : IVec S_ 1 := (fun x v => Host.reduce IntOp.andi x v reducesTo_S15_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S8192 .f32) (main_arg3 : FVec F S15 .f32) (main_arg4 : IVec S2x262144 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S15 .f32 := Host.absf main_arg3
  let main_cst_4 : FVec F S_ .f32 := constant S_ .f32 0x7F800000#32
  let main_v15 : FVec F S15 .f32 := broadcastInDim S15 ![] bcast_S_S15 main_cst_4
  let main_v16 : IVec S15 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S8192 : Shape := ⟨1, ![8192]⟩
abbrev S15 : Shape := ⟨1, ![15]⟩
abbrev S2x262144 : Shape := ⟨2, ![2, 262144]⟩
abbrev S_ : Shape := ⟨0, ![]⟩
abbrev S8192x1 : Shape := ⟨2, ![8192, 1]⟩
abbrev S2048x1024 : Shape := ⟨2, ![2048, 1024]⟩
abbrev S1024x1 : Shape := ⟨2, ![1024, 1]⟩
abbrev S1024x256 : Shape := ⟨2, ![1024, 256]⟩
abbrev S2048x256 : Shape := ⟨2, ![2048, 256]⟩
abbrev S1024x2048 : Shape := ⟨2, ![1024, 2048]⟩

abbrev nBuf : Space → Nat
  | .hbm => 29
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192, .f32⟩
  | .hbm, ⟨3, _⟩ => ⟨S15, .f32⟩
  | .hbm, ⟨4, _⟩ => ⟨S2x262144, .i32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192, .f32⟩
  | .hbm, ⟨26, _⟩ => ⟨S8192x1, .f32⟩
  | .hbm, ⟨27, _⟩ => ⟨S8192x256, .f32⟩
  | .hbm, ⟨28, _⟩ => ⟨S8192x256, .f32⟩
  | .local _ .vmem, ⟨0, _⟩ => ⟨S2048x1024, .f32⟩
  | .local _ .vmem, ⟨1, _⟩ => ⟨S2048x1024, .f32⟩
  | .local _ .vmem, ⟨2, _⟩ => ⟨S8192x256, .f32⟩
  | .local _ .vmem, ⟨3, _⟩ => ⟨S1024x1, .f32⟩
  | .local _ .vmem, ⟨4, _⟩ => ⟨S1024x1, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x2048, .f32⟩
  | .local _ .vmem, ⟨9, _⟩ => ⟨S1024x2048, .f32⟩
  | .local _ .vmem, ⟨10, _⟩ => ⟨S8192x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  h_S2048x256 : 0 < S2048x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1024x2048_S1024x2048_0_0 : ∀ a, (![0, 0] : Fin 2 → Nat) a + S1024x2048.size a ≤ S1024x2048.size a
  h_S1024x2048 : 0 < S1024x2048.numel
  shapeCasts_S2048x256_S2048x256 : S2048x256.ShapeCasts S2048x256
  gather_S15_S8192x1_S8192_n_0_n_n_0_1_1_wf : GatherDims.WF S15 S8192x1 S8192 [] [0] [] [0] [] 1 ![1]
  dot_S2048x1024_S2048x256_S1024x256_0_0_1_1_n_n_wf : DotDims.WF S2048x1024 S2048x256 S1024x256 [0] [0] [1] [1] [] []
  dot_S1024x2048_S2048x256_S1024x256_1_0_0_1_n_n_wf : DotDims.WF S1024x2048 S2048x256 S1024x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)

variable [Facts₀]

def gather_S15_S8192x1_S8192_n_0_n_n_0_1_1 : GatherDims S15 S8192x1 S8192 where
  offsetDims := []
  collapsedSliceDims := [0]
  operandBatchingDims := []
  startIndicesBatchingDims := []
  startIndexMap := [0]
  indexVectorDim := 1
  sliceSizes := ![1]
  wf := gather_S15_S8192x1_S8192_n_0_n_n_0_1_1_wf
def dot_S2048x1024_S2048x256_S1024x256_0_0_1_1_n_n : DotDims S2048x1024 S2048x256 S1024x256 where
  lhsContracting := [0]
  rhsContracting := [0]
  lhsNonContracting := [1]
  rhsNonContracting := [1]
  lhsBatch := []
  rhsBatch := []
  wf := dot_S2048x1024_S2048x256_S1024x256_0_0_1_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S8192 : Shape := ⟨1, ![8192]⟩
abbrev S15 : Shape := ⟨1, ![15]⟩
abbrev S2x262144 : Shape := ⟨2, ![2, 262144]⟩
abbrev S_ : Shape := ⟨0, ![]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192, .f32⟩
  | .hbm, ⟨3, _⟩ => ⟨S15, .f32⟩
  | .hbm, ⟨4, _⟩ => ⟨S2x262144, .i32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192, .f32⟩
  | .hbm, ⟨26, _⟩ => ⟨S8192x8192, .f32⟩
  | .hbm, ⟨27, _⟩ => ⟨S8192x256, .f32⟩
  | .hbm, ⟨28, _⟩ => ⟨S8192x1, .f32⟩
  | .hbm, ⟨29, _⟩ => ⟨S8192x256, .f32⟩
  | .hbm, ⟨30, _⟩ => ⟨S8192x256, .f32⟩
  | .hbm, ⟨31, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  transposes_S8192x8192_S8192x8192_1_0 : S8192x8192.Transposes [1, 0] S8192x8192
  bcast_S8192x1_S8192x256_0_1 : S8192x1.BroadcastsInDim S8192x256 (![0, 1] : Fin 2 → Fin S8192x256.rank)
  gather_S15_S8192x1_S8192_n_0_n_n_0_1_1_wf : GatherDims.WF S15 S8192x1 S8192 [] [0] [] [0] [] 1 ![1]
  dot_S8192x8192_S8192x256_S8192x256_1_0_0_1_n_n_wf : DotDims.WF S8192x8192 S8192x256 S8192x256 [1] [0] [0] [1] [] []

variable [Facts₀]

def gather_S15_S8192x1_S8192_n_0_n_n_0_1_1 : GatherDims S15 S8192x1 S8192 where
  offsetDims := []
  collapsedSliceDims := [0]
  operandBatchingDims := []
  startIndicesBatchingDims := []
  startIndexMap := [0]
  indexVectorDim := 1
  sliceSizes := ![1]
  wf := gather_S15_S8192x1_S8192_n_0_n_n_0_1_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KB.Base0.lean ====
/-
  Stage A (the first kernel region, a 8 x 4 grid: row tile m, contraction step k): what the runs of its body share.
  The body branches twice on the contraction step: at k = 0 it clears the accumulator scratch, at k = 3 it scales the
  accumulator by the weight column and stores the output tile.  So a grid point t = 4 m + k is in one of three cases:
  A (k = 0: clear, accumulate), B (k = 1, 2: accumulate), C (k = 3: accumulate, scale and store).  The output window
  is idle, and not written back, at the points of cases A and B.
-/
import proofs.«132790_j5755256177387_2_alg».proof.Proof.Gen.Kernel.Launch
import proofs.«132790_j5755256177387_2_alg».proof.Proof.Gen.Kernel.Skeleton
import proofs.«132790_j5755256177387_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the block index
    does not move between fetches), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's branch conditions, decided over the grid -/

/-- "the contraction step is 0" as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "the contraction step is 3" as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the step is not 3 the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The staging and scratch memrefs -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x256 .f32 := Memref.whole cc0_scratch0
abbrev VS0_0 : View sig .tc .vmem S1024x256 .f32 := scM0_0.view
abbrev VO0_3 : View sig .tc .vmem S1024x256 .f32 := (Memref.whole cc0_stg3_0 : Memref sig .tc .vmem S1024x256 .f32).view

/-- The region's default invariant with the accumulator as a memref owned at some contents; the other scoped
    buffers (the second region's) stay a rest `Rest0 c` that nothing here reads. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA Rest0; rw [scopedRest0_eq]; simp only [scM0_0, owns_whole]; try rfl

end Cert.Kernel.Gen

end
-- ==== Proof.KB.Run0A.lean ====
/-
  Stage A's body run whole in case A (the contraction step is 0: the accumulator is cleared, then the step's product is added).  The inputs' staging buffers are handed back as
  found; the accumulator ends with the stores of the case written over it; the output tile's buffer, idle here, is handed back untouched.
-/
import proofs.«132790_j5755256177387_2_alg».proof.Proof.KB.Base0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : cond0_0 i) (hc1 : ¬cond0_1 i)
    (x0 : Vec F S2048x1024 .f32) (x1 : Vec F S8192x256 .f32) (x2 : Vec F S1024x1 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stageA_kernel i arg2 harg2 arg3 harg3 arg4 harg4 arg5 harg5 arg6 harg6) K } := by
  refine ⟨[], ?_, fun xi3 E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.Run0B.lean ====
/-
  Stage A's body run whole in case B (the contraction step is 1 or 2: the step's product is added to the accumulator).  The inputs' staging buffers are handed back as
  found; the accumulator ends with the stores of the case written over it; the output tile's buffer, idle here, is handed back untouched.
-/
import proofs.«132790_j5755256177387_2_alg».proof.Proof.KB.Base0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : ¬cond0_1 i)
    (x0 : Vec F S2048x1024 .f32) (x1 : Vec F S8192x256 .f32) (x2 : Vec F S1024x1 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stageA_kernel i arg2 harg2 arg3 harg3 arg4 harg4 arg5 harg5 arg6 harg6) K } := by
  refine ⟨[], ?_, fun xi3 E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Gen

end
-- ==== Proof.KB.Run0C.lean ====
/-
  Stage A's body run whole in case C (the contraction step is 3: the step's product is added, then the accumulator times the weight column is stored as the output tile).  The inputs' staging buffers are handed back as
  found; the accumulator ends with the stores of the case written over it, and so does the output tile's buffer.
-/
import proofs.«132790_j5755256177387_2_alg».proof.Proof.KB.Base0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i)
    (x0 : Vec F S2048x1024 .f32) (x1 : Vec F S8192x256 .f32) (x2 : Vec F S1024x1 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__stageA_kernel i arg2 harg2 arg3 harg3 arg4 harg4 arg5 harg5 arg6 harg6) K } := by
  refine ⟨?_, ?_, fun E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Gen

end
-- ==== Proof.KB.Frame0.lean ====
/-
  Stage A: what the output tile's buffer and the accumulator hold after each grid point, by recursion on the point
  (the case the point is in, run on the point's input blocks; in cases B and C over the accumulator the point before
  left), the region's invariant carrying the accumulator at that value from point to point, the proof data, and the
  body obligation at a generic point.  The entry contents `V` of the core's buffers are a parameter.
-/
import proofs.«132790_j5755256177387_2_alg».proof.Proof.KB.Run0A
import proofs.«132790_j5755256177387_2_alg».proof.Proof.KB.Run0B
import proofs.«132790_j5755256177387_2_alg».proof.Proof.KB.Run0C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's stores into the accumulator cover it. -/
theorem scover0_A_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : cond0_0 i) (hc1 : ¬cond0_1 i)
    (x0 : Vec F S2048x1024 .f32) (x1 : Vec F S8192x256 .f32) (x2 : Vec F S1024x1 .f32) (y : S1024x256.Idx) :
    ∃ pc ∈ (kernelRun0_A c i a0 ha0 a1 ha1 a2 ha2 a3 ha3 asc hasc hc0 hc1 x0 x1 x2).2.1, y ∈ pc.1.set :=
  View.cover_of_tiledL (kernelRun0_A c i a0 ha0 a1 ha1 a2 ha2 a3 ha3 asc hasc hc0 hc1 x0 x1 x2).2.1 S1024x256.size (by sl_kernel_rfl) y

/-- What case A leaves in the accumulator: its stores read back. -/
def sout0_A_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : cond0_0 i) (hc1 : ¬cond0_1 i)
    (x0 : Vec F S2048x1024 .f32) (x1 : Vec F S8192x256 .f32) (x2 : Vec F S1024x1 .f32) : Vec F S1024x256 .f32 :=
  VS0_0.read (Elt F) (VS0_0.writes (Elt F) VS0_0.junk (kernelRun0_A c i a0 ha0 a1 ha1 a2 ha2 a3 ha3 asc hasc hc0 hc1 x0 x1 x2).2.1)

/-- Case B's stores into the accumulator cover it. -/
theorem scover0_B_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : ¬cond0_1 i)
    (x0 : Vec F S2048x1024 .f32) (x1 : Vec F S8192x256 .f32) (x2 : Vec F S1024x1 .f32) (xs0 : Vec F S1024x256 .f32) (y : S1024x256.Idx) :
    ∃ pc ∈ (kernelRun0_B c i a0 ha0 a1 ha1 a2 ha2 a3 ha3 asc hasc hc0 hc1 x0 x1 x2 xs0).2.1, y ∈ pc.1.set :=
  View.cover_of_tiledL (kernelRun0_B c i a0 ha0 a1 ha1 a2 ha2 a3 ha3 asc hasc hc0 hc1 x0 x1 x2 xs0).2.1 S1024x256.size (by sl_kernel_rfl) y

/-- What case B leaves in the accumulator: its stores read back. -/
def sout0_B_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : ¬cond0_1 i)
    (x0 : Vec F S2048x1024 .f32) (x1 : Vec F S8192x256 .f32) (x2 : Vec F S1024x1 .f32) (xs0 : Vec F S1024x256 .f32) : Vec F S1024x256 .f32 :=
  VS0_0.read (Elt F) (VS0_0.writes (Elt F) VS0_0.junk (kernelRun0_B c i a0 ha0 a1 ha1 a2 ha2 a3 ha3 asc hasc hc0 hc1 x0 x1 x2 xs0).2.1)

/-- Case C's stores into the accumulator cover it. -/
theorem scover0_C_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i)
    (x0 : Vec F S2048x1024 .f32) (x1 : Vec F S8192x256 .f32) (x2 : Vec F S1024x1 .f32) (xs0 : Vec F S1024x256 .f32) (y : S1024x256.Idx) :
    ∃ pc ∈ (kernelRun0_C c i a0 ha0 a1 ha1 a2 ha2 a3 ha3 asc hasc hc0 hc1 x0 x1 x2 xs0).2.1, y ∈ pc.1.set :=
  View.cover_of_tiledL (kernelRun0_C c i a0 ha0 a1 ha1 a2 ha2 a3 ha3 asc hasc hc0 hc1 x0 x1 x2 xs0).2.1 S1024x256.size (by sl_kernel_rfl) y

/-- What case C leaves in the accumulator: its stores read back. -/
def sout0_C_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i)
    (x0 : Vec F S2048x1024 .f32) (x1 : Vec F S8192x256 .f32) (x2 : Vec F S1024x1 .f32) (xs0 : Vec F S1024x256 .f32) : Vec F S1024x256 .f32 :=
  VS0_0.read (Elt F) (VS0_0.writes (Elt F) VS0_0.junk (kernelRun0_C c i a0 ha0 a1 ha1 a2 ha2 a3 ha3 asc hasc hc0 hc1 x0 x1 x2 xs0).2.1)

/-- Case C's stores into the output tile's buffer cover it. -/
theorem cover0_C_3 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i)
    (x0 : Vec F S2048x1024 .f32) (x1 : Vec F S8192x256 .f32) (x2 : Vec F S1024x1 .f32) (xs0 : Vec F S1024x256 .f32) (y : S1024x256.Idx) :
    ∃ pc ∈ (kernelRun0_C c i a0 ha0 a1 ha1 a2 ha2 a3 ha3 asc hasc hc0 hc1 x0 x1 x2 xs0).1, y ∈ pc.1.set :=
  View.cover_of_tiledL (kernelRun0_C c i a0 ha0 a1 ha1 a2 ha2 a3 ha3 asc hasc hc0 hc1 x0 x1 x2 xs0).1 S1024x256.size (by sl_kernel_rfl) y

/-- What case C leaves in the output tile's buffer: its stores read back. -/
def out0_C_3 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i)
    (x0 : Vec F S2048x1024 .f32) (x1 : Vec F S8192x256 .f32) (x2 : Vec F S1024x1 .f32) (xs0 : Vec F S1024x256 .f32) : Vec F S1024x256 .f32 :=
  VO0_3.read (Elt F) (VO0_3.writes (Elt F) VO0_3.junk (kernelRun0_C c i a0 ha0 a1 ha1 a2 ha2 a3 ha3 asc hasc hc0 hc1 x0 x1 x2 xs0).1)

section
variable (V : (c : Dev nD) → (b : Ref sig .tc) → Buf (Elt F) ((c : Thread nD τ).loc b))

theorem nc10_of_mod0 (t : Fin cfg0.N) (h : t.val % 4 = 0) : ¬cond0_1 (grid0.coords t) :=
  fun h' => by have := (hcond0_1 t).mp h'; omega
theorem nc00_of_ne (t : Fin cfg0.N) (h : ¬t.val % 4 = 0) : ¬cond0_0 (grid0.coords t) :=
  fun h' => h ((hcond0_0 t).mp h')
theorem nc10_of_ne (t : Fin cfg0.N) (h : ¬t.val % 4 = 3) : ¬cond0_1 (grid0.coords t) :=
  fun h' => h ((hcond0_1 t).mp h')

/-- THE ACCUMULATION: (the output tile's buffer, the accumulator) after the body at position `n`. Where the point
    stores nothing into the output tile its component is a placeholder nothing reads. -/
def outsAt0 (c : Dev nD) : (n : ℕ) → n < cfg0.N → Vec F S1024x256 .f32 × Vec F S1024x256 .f32
  | 0, hn => (VO0_3.read (Elt F) VO0_3.junk,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (nc10_of_mod0 ⟨0, hn⟩ (Nat.zero_mod _)) (iblk0 V c 0 ⟨0, hn⟩) (iblk0 V c 1 ⟨0, hn⟩) (iblk0 V c 2 ⟨0, hn⟩))
  | n + 1, hn =>
    if h0 : (n + 1) % 4 = 0 then
      (VO0_3.read (Elt F) VO0_3.junk,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (nc10_of_mod0 ⟨n + 1, hn⟩ h0) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc00_of_ne ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc00_of_ne ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (VO0_3.read (Elt F) VO0_3.junk,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc00_of_ne ⟨n + 1, hn⟩ h0) (nc10_of_ne ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) :
    outsAt0 V c t.val t.isLt = (VO0_3.read (Elt F) VO0_3.junk, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (nc10_of_mod0 t h0) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (VO0_3.read (Elt F) VO0_3.junk, sout0_B_0 c (grid0.coords t) (ms0_0 t) (hs0_0 t) (ms0_1 t) (hs0_1 t) (ms0_2 t) (hs0_2 t) (ms0_3 t) (hs0_3 t) scM0_0 (Memref.isWhole_whole _) (nc00_of_ne t h0) (nc10_of_ne t h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (nc00_of_ne t h0) ((hcond0_1 t).mpr h1) (iblk0 V c 0 t) (iblk0 V c 1 t) (iblk0 V c 2 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (nc00_of_ne t h0) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the default one (every scoped buffer that is
    no staging buffer of this region at anything, the generator register at some state); afterwards the same with
    the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-- The proof data of this region on core `c`: the arrays as the region finds them; after the body at point `t` each
    input's buffer at its block and the output tile's at `outsAt0`; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's residue mod 4 says which case it is in;
    the invariant hands the body the accumulator at what the point before left (at anything at the first point) and
    takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat0 V c).leavesExact 3 t = owns (c : Thread nD τ) (ms0_3 t) fullShare ((dat0 V c).after 3 t) from by
          unfold Dat.leavesExact; rw [liveAt0_3 t ((hcond0_1 t).mpr h1)], after0_3]
      rw [outsAt0_C V c t h0 h1]
      unfold out0_C_3 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HR⟩, Hg⟩
  isplitl [HS0 HR]
  · isplitl [HS0]; · iexists _; iexact HS0
    iexact HR
  iexact Hg

end

end Cert.Kernel.Gen

end
-- ==== Proof.KB.Base1.lean ====
/-
  Stage B (the second kernel region, a 8 x 4 grid: row tile m, contraction step k): what the runs of its body share.
  The body clears its accumulator scratch at k = 0, adds the step's product at every step, and at k = 3 stores the
  accumulator as the output tile.  A grid point t = 4 m + k is in case A (k = 0), B (k = 1, 2) or C (k = 3); the
  output window is idle, and not written back, at the points of cases A and B.
-/
import proofs.«132790_j5755256177387_2_alg».proof.Proof.Gen.Kernel.Launch
import proofs.«132790_j5755256177387_2_alg».proof.Proof.Gen.Kernel.Skeleton
import proofs.«132790_j5755256177387_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's branch conditions, decided over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging and scratch memrefs -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev scM1_0 : Memref sig .tc .vmem S1024x256 .f32 := Memref.whole cc1_scratch0
abbrev VS1_0 : View sig .tc .vmem S1024x256 .f32 := scM1_0.view
abbrev VO1_2 : View sig .tc .vmem S1024x256 .f32 := (Memref.whole cc1_stg2_0 : Memref sig .tc .vmem S1024x256 .f32).view

/-- The first region's scoped buffers, each at some contents (nothing here reads them), then `P`. -/
def Rest1With (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ P)

/-- The default invariant is the first region's scoped buffers, then this region's accumulator at some contents, and the
    generator register at some state. -/
theorem PhiA1_eq (c : Dev nD) :
    (Pipeline.ΦA spec1 c : sProp 𝕄)
      = iprop(Rest1With (F := F) c iprop(∃ d, owns (c : Thread nD τ) scM1_0 fullShare d) ∗ (∃ r, prngReg c r)) := by
  unfold Pipeline.ΦA Rest1With; rw [scopedRest1_eq]; simp only [scM1_0, owns_whole]; try rfl

end Cert.Kernel.Gen

end
-- ==== Proof.KB.Run1A.lean ====
/-
  Stage B's body run whole in case A (the contraction step is 0: the accumulator is cleared, then the step's product is added).  The inputs' staging buffers are handed back as
  found; the accumulator ends with the stores of the case written over it; the output tile's buffer, idle here, is handed back untouched.
-/
import proofs.«132790_j5755256177387_2_alg».proof.Proof.KB.Base1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x2048 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S8192x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__stageB_kernel i arg2 harg2 arg3 harg3 arg4 harg4 arg5 harg5) K } := by
  refine ⟨[], ?_, fun xi2 E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Gen

end
-- ==== Proof.KB.Run1B.lean ====
/-
  Stage B's body run whole in case B (the contraction step is 1 or 2: the step's product is added to the accumulator).  The inputs' staging buffers are handed back as
  found; the accumulator ends with the stores of the case written over it; the output tile's buffer, idle here, is handed back untouched.
-/
import proofs.«132790_j5755256177387_2_alg».proof.Proof.KB.Base1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x2048 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S8192x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__stageB_kernel i arg2 harg2 arg3 harg3 arg4 harg4 arg5 harg5) K } := by
  refine ⟨[], ?_, fun xi2 E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Gen

end
-- ==== Proof.KB.Run1C.lean ====
/-
  Stage B's body run whole in case C (the contraction step is 3: the step's product is added, then the accumulator is stored as the output tile).  The inputs' staging buffers are handed back as
  found; the accumulator ends with the stores of the case written over it, and so does the output tile's buffer.
-/
import proofs.«132790_j5755256177387_2_alg».proof.Proof.KB.Base1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x2048 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S8192x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__stageB_kernel i arg2 harg2 arg3 harg3 arg4 harg4 arg5 harg5) K } := by
  refine ⟨?_, ?_, fun E K => ?run⟩
  case run =>
    simp only [cc1__stageB_kernel_eq_skeleton]; unfold cc1__stageB_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gen

end
-- ==== Proof.KB.Frame1.lean ====
/-
  Stage B: what the output tile's buffer and the accumulator hold after each grid point, by recursion on the point
  (the case the point is in, run on the point's input blocks; in cases B and C over the accumulator the point before
  left), the region's invariant carrying the accumulator at that value from point to point, the proof data, and the
  body obligation at a generic point.  The entry contents `V` of the core's buffers are a parameter.
-/
import proofs.«132790_j5755256177387_2_alg».proof.Proof.KB.Run1A
import proofs.«132790_j5755256177387_2_alg».proof.Proof.KB.Run1B
import proofs.«132790_j5755256177387_2_alg».proof.Proof.KB.Run1C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's stores into the accumulator cover it. -/
theorem scover1_A_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : cond1_0 i) (hc1 : ¬cond1_1 i)
    (x0 : Vec F S1024x2048 .f32) (x1 : Vec F S8192x256 .f32) (y : S1024x256.Idx) :
    ∃ pc ∈ (kernelRun1_A c i a0 ha0 a1 ha1 a2 ha2 asc hasc hc0 hc1 x0 x1).2.1, y ∈ pc.1.set :=
  View.cover_of_tiledL (kernelRun1_A c i a0 ha0 a1 ha1 a2 ha2 asc hasc hc0 hc1 x0 x1).2.1 S1024x256.size (by sl_kernel_rfl) y

/-- What case A leaves in the accumulator: its stores read back. -/
def sout1_A_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : cond1_0 i) (hc1 : ¬cond1_1 i)
    (x0 : Vec F S1024x2048 .f32) (x1 : Vec F S8192x256 .f32) : Vec F S1024x256 .f32 :=
  VS1_0.read (Elt F) (VS1_0.writes (Elt F) VS1_0.junk (kernelRun1_A c i a0 ha0 a1 ha1 a2 ha2 asc hasc hc0 hc1 x0 x1).2.1)

/-- Case B's stores into the accumulator cover it. -/
theorem scover1_B_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : ¬cond1_1 i)
    (x0 : Vec F S1024x2048 .f32) (x1 : Vec F S8192x256 .f32) (xs0 : Vec F S1024x256 .f32) (y : S1024x256.Idx) :
    ∃ pc ∈ (kernelRun1_B c i a0 ha0 a1 ha1 a2 ha2 asc hasc hc0 hc1 x0 x1 xs0).2.1, y ∈ pc.1.set :=
  View.cover_of_tiledL (kernelRun1_B c i a0 ha0 a1 ha1 a2 ha2 asc hasc hc0 hc1 x0 x1 xs0).2.1 S1024x256.size (by sl_kernel_rfl) y

/-- What case B leaves in the accumulator: its stores read back. -/
def sout1_B_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : ¬cond1_1 i)
    (x0 : Vec F S1024x2048 .f32) (x1 : Vec F S8192x256 .f32) (xs0 : Vec F S1024x256 .f32) : Vec F S1024x256 .f32 :=
  VS1_0.read (Elt F) (VS1_0.writes (Elt F) VS1_0.junk (kernelRun1_B c i a0 ha0 a1 ha1 a2 ha2 asc hasc hc0 hc1 x0 x1 xs0).2.1)

/-- Case C's stores into the accumulator cover it. -/
theorem scover1_C_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i)
    (x0 : Vec F S1024x2048 .f32) (x1 : Vec F S8192x256 .f32) (xs0 : Vec F S1024x256 .f32) (y : S1024x256.Idx) :
    ∃ pc ∈ (kernelRun1_C c i a0 ha0 a1 ha1 a2 ha2 asc hasc hc0 hc1 x0 x1 xs0).2.1, y ∈ pc.1.set :=
  View.cover_of_tiledL (kernelRun1_C c i a0 ha0 a1 ha1 a2 ha2 asc hasc hc0 hc1 x0 x1 xs0).2.1 S1024x256.size (by sl_kernel_rfl) y

/-- What case C leaves in the accumulator: its stores read back. -/
def sout1_C_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i)
    (x0 : Vec F S1024x2048 .f32) (x1 : Vec F S8192x256 .f32) (xs0 : Vec F S1024x256 .f32) : Vec F S1024x256 .f32 :=
  VS1_0.read (Elt F) (VS1_0.writes (Elt F) VS1_0.junk (kernelRun1_C c i a0 ha0 a1 ha1 a2 ha2 asc hasc hc0 hc1 x0 x1 xs0).2.1)

/-- Case C's stores into the output tile's buffer cover it. -/
theorem cover1_C_2 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i)
    (x0 : Vec F S1024x2048 .f32) (x1 : Vec F S8192x256 .f32) (xs0 : Vec F S1024x256 .f32) (y : S1024x256.Idx) :
    ∃ pc ∈ (kernelRun1_C c i a0 ha0 a1 ha1 a2 ha2 asc hasc hc0 hc1 x0 x1 xs0).1, y ∈ pc.1.set :=
  View.cover_of_tiledL (kernelRun1_C c i a0 ha0 a1 ha1 a2 ha2 asc hasc hc0 hc1 x0 x1 xs0).1 S1024x256.size (by sl_kernel_rfl) y

/-- What case C leaves in the output tile's buffer: its stores read back. -/
def out1_C_2 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i)
    (x0 : Vec F S1024x2048 .f32) (x1 : Vec F S8192x256 .f32) (xs0 : Vec F S1024x256 .f32) : Vec F S1024x256 .f32 :=
  VO1_2.read (Elt F) (VO1_2.writes (Elt F) VO1_2.junk (kernelRun1_C c i a0 ha0 a1 ha1 a2 ha2 asc hasc hc0 hc1 x0 x1 xs0).1)

section
variable (V : (c : Dev nD) → (b : Ref sig .tc) → Buf (Elt F) ((c : Thread nD τ).loc b))

theorem nc11_of_mod0 (t : Fin cfg1.N) (h : t.val % 4 = 0) : ¬cond1_1 (grid1.coords t) :=
  fun h' => by have := (hcond1_1 t).mp h'; omega
theorem nc01_of_ne (t : Fin cfg1.N) (h : ¬t.val % 4 = 0) : ¬cond1_0 (grid1.coords t) :=
  fun h' => h ((hcond1_0 t).mp h')
theorem nc11_of_ne (t : Fin cfg1.N) (h : ¬t.val % 4 = 3) : ¬cond1_1 (grid1.coords t) :=
  fun h' => h ((hcond1_1 t).mp h')

/-- THE ACCUMULATION: (the output tile's buffer, the accumulator) after the body at position `n`. Where the point
    stores nothing into the output tile its component is a placeholder nothing reads. -/
def outsAt1 (c : Dev nD) : (n : ℕ) → n < cfg1.N → Vec F S1024x256 .f32 × Vec F S1024x256 .f32
  | 0, hn => (VO1_2.read (Elt F) VO1_2.junk,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (nc11_of_mod0 ⟨0, hn⟩ (Nat.zero_mod _)) (iblk1 V c 0 ⟨0, hn⟩) (iblk1 V c 1 ⟨0, hn⟩))
  | n + 1, hn =>
    if h0 : (n + 1) % 4 = 0 then
      (VO1_2.read (Elt F) VO1_2.junk,
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (nc11_of_mod0 ⟨n + 1, hn⟩ h0) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nc01_of_ne ⟨n + 1, hn⟩ h0) ((hcond1_1 ⟨n + 1, hn⟩).mpr h1) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nc01_of_ne ⟨n + 1, hn⟩ h0) ((hcond1_1 ⟨n + 1, hn⟩).mpr h1) (iblk1 V c 0 ⟨n + 1, hn⟩) (iblk1 V c 1 ⟨n + 1, hn⟩) (outsAt1 c n (Nat.lt_of_succ_lt hn)).2)
      else
        (VO1_2.read (Elt F) VO1_2.junk,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nc01_of_ne ⟨n + 1, hn⟩ h0) (nc11_of_ne ⟨n + 1, hn⟩ h1) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) :
    outsAt1 V c t.val t.isLt = (VO1_2.read (Elt F) VO1_2.junk, sout1_A_0 c (grid1.coords t) (ms1_0 t) (hs1_0 t) (ms1_1 t) (hs1_1 t) (ms1_2 t) (hs1_2 t) scM1_0 (Memref.isWhole_whole _) ((hcond1_0 t).mpr h0) (nc11_of_mod0 t h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (VO1_2.read (Elt F) VO1_2.junk, sout1_B_0 c (grid1.coords t) (ms1_0 t) (hs1_0 t) (ms1_1 t) (hs1_1 t) (ms1_2 t) (hs1_2 t) scM1_0 (Memref.isWhole_whole _) (nc01_of_ne t h0) (nc11_of_ne t h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (nc01_of_ne t h0) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (nc01_of_ne t h0) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the default one (every scoped buffer that is
    no staging buffer of this region at anything, the generator register at some state); afterwards the same with
    the accumulator at what the point before left in it. -/
def PhiS1 (c : Dev nD) : (n : ℕ) → n ≤ cfg1.N → sProp 𝕄
  | 0, _ => Pipeline.ΦA spec1 c
  | n + 1, hn => iprop(Rest1With (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(Rest1With (F := F) c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(Rest1With (F := F) c (owns (c : Thread nD τ) scM1_0 fullShare ((outsAt1 V c (n - 1) (by omega)).2)) ∗ (∃ r, prngReg c r)) := by
  cases n with
  | zero => exact absurd rfl hz
  | succ n => rfl

/-- The proof data of this region on core `c`: the arrays as the region finds them; after the body at point `t` each
    input's buffer at its block and the output tile's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's residue mod 4 says which case it is in;
    the invariant hands the body the accumulator at what the point before left (at anything at the first point) and
    takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0]
    unfold sout1_A_0; (try dsimp only)
    by_cases hz : t.val = 0
    · rw [PhiS1_castSucc V c t, PhiS1_zero V c _ _ hz, PhiA1_eq]
      unfold Rest1With
      iintro ⟨⟨⟨Hr1, Hr2, Hr3, Hr4, Hr5, Hr6, Hr7, Hr8, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr1 Hr2 Hr3 Hr4 Hr5 Hr6 Hr7 Hr8 Hg]
      · isplitl [HS0 Hr1 Hr2 Hr3 Hr4 Hr5 Hr6 Hr7 Hr8]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      unfold Rest1With
      iintro ⟨⟨⟨Hr1, Hr2, Hr3, Hr4, Hr5, Hr6, Hr7, Hr8, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr1 Hr2 Hr3 Hr4 Hr5 Hr6 Hr7 Hr8 Hg]
      · isplitl [HS0 Hr1 Hr2 Hr3 Hr4 Hr5 Hr6 Hr7 Hr8]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
          unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      unfold Rest1With
      iintro ⟨⟨⟨Hr1, Hr2, Hr3, Hr4, Hr5, Hr6, Hr7, Hr8, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr1 Hr2 Hr3 Hr4 Hr5 Hr6 Hr7 Hr8 Hg]
      · isplitl [HS0 Hr1 Hr2 Hr3 Hr4 Hr5 Hr6 Hr7 Hr8]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      unfold Rest1With
      iintro ⟨⟨⟨Hr1, Hr2, Hr3, Hr4, Hr5, Hr6, Hr7, Hr8, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr1 Hr2 Hr3 Hr4 Hr5 Hr6 Hr7 Hr8 Hg]
      · isplitl [HS0 Hr1 Hr2 Hr3 Hr4 Hr5 Hr6 Hr7 Hr8]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  unfold Rest1With
  iintro ⟨⟨Hr1, Hr2, Hr3, Hr4, Hr5, Hr6, Hr7, Hr8, HS0⟩, Hg⟩
  isplitl [HS0 Hr1 Hr2 Hr3 Hr4 Hr5 Hr6 Hr7 Hr8]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexists _; iexact HS0
  iexact Hg

end

end Cert.Kernel.Gen

end
-- ==== Proof.KB.Run.lean ====
/-
  The whole program's run.  Between two items of @main the core holds every unscoped buffer at a known value: the
  launch memory, then each stretch of host operations applied in order, then after each kernel region its arrays at
  what its write-backs leave (its inputs as entered, its output tile by tile) and every other buffer as entered.  The
  launch runs the five items in order and reads every unscoped buffer back at the last of these values; the frame
  claim and the value of the result are read off that.
-/
import proofs.«132790_j5755256177387_2_alg».proof.Proof.KB.Frame0
import proofs.«132790_j5755256177387_2_alg».proof.Proof.KB.Frame1
import proofs.«132790_j5755256177387_2_alg».proof.Proof.Gen.Kernel.Regions
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the region boundaries -/

/-- Region 0's entry contents read at the core's references. -/
abbrev E3 : (c : Dev nD) → (b : Ref sig .tc) → Buf (Elt F) ((c : Thread nD τ).loc b) := fun c b => V3 m c b
/-- At region 0's exit. -/
def Wf4 (c : Dev nD) : Valuation τ sig (Elt F) :=
  Pipeline.withArrays spec0 c (V3 m c) fun w => (dat0 (E3 m) c).arrAt w cfg0.N
theorem Wf4_arr (c : Dev nD) (w : Fin cfg0.W) :
    Wf4 m c (Proc.devRef .tc (Pipeline.arrRef spec0 w)) = (dat0 (E3 m) c).arrAt w cfg0.N := by
  unfold Wf4; exact Pipeline.withArrays_arr spec0 launch0.win.arr_inj c _ _ w
theorem Wf4_of_ne (c : Dev nD) (b : Ref sig .tc) (hb : ∀ w, Pipeline.arrRef spec0 w ≠ b) :
    Wf4 m c (Proc.devRef .tc b) = V3 m c (Proc.devRef .tc b) := by
  unfold Wf4; exact Pipeline.withArrays_of_ne spec0 c _ _ b hb
abbrev E4 : (c : Dev nD) → (b : Ref sig .tc) → Buf (Elt F) ((c : Thread nD τ).loc b) := fun c b => Wf4 m c b
theorem hF0 (c : Dev nD) (w : Fin cfg0.W) : (dat0 (E3 m) c).arrAt w cfg0.N = E4 m c (Pipeline.arrRef spec0 w) :=
  (Wf4_arr m c w).symm
theorem hrest0 (c : Dev nD) : ∀ b, b ∉ Finset.univ.image (Pipeline.arrRef spec0) → E4 m c b = E3 m c b :=
  fun b hb => Wf4_of_ne m c b fun w e => hb (Finset.mem_image.mpr ⟨w, Finset.mem_univ _, e⟩)

/-- At region 1's exit. -/
def Wf5 (c : Dev nD) : Valuation τ sig (Elt F) :=
  Pipeline.withArrays spec1 c (Wf4 m c) fun w => (dat1 (E4 m) c).arrAt w cfg1.N
theorem Wf5_arr (c : Dev nD) (w : Fin cfg1.W) :
    Wf5 m c (Proc.devRef .tc (Pipeline.arrRef spec1 w)) = (dat1 (E4 m) c).arrAt w cfg1.N := by
  unfold Wf5; exact Pipeline.withArrays_arr spec1 launch1.win.arr_inj c _ _ w
theorem Wf5_of_ne (c : Dev nD) (b : Ref sig .tc) (hb : ∀ w, Pipeline.arrRef spec1 w ≠ b) :
    Wf5 m c (Proc.devRef .tc b) = Wf4 m c (Proc.devRef .tc b) := by
  unfold Wf5; exact Pipeline.withArrays_of_ne spec1 c _ _ b hb
abbrev E5 : (c : Dev nD) → (b : Ref sig .tc) → Buf (Elt F) ((c : Thread nD τ).loc b) := fun c b => Wf5 m c b
theorem hF1 (c : Dev nD) (w : Fin cfg1.W) : (dat1 (E4 m) c).arrAt w cfg1.N = E5 m c (Pipeline.arrRef spec1 w) :=
  (Wf5_arr m c w).symm
theorem hrest1 (c : Dev nD) : ∀ b, b ∉ Finset.univ.image (Pipeline.arrRef spec1) → E5 m c b = E4 m c b :=
  fun b hb => Wf5_of_ne m c b fun w e => hb (Finset.mem_image.mpr ⟨w, Finset.mem_univ _, e⟩)

/-! ## The arguments end as launched -/

theorem Wf5_main_arg0 (c : Dev nD) : Wf5 m c (Proc.devRef .tc main_arg0) = m ((c : Thread nD τ).loc main_arg0) :=
  calc Wf5 m c (Proc.devRef .tc main_arg0)
    _ = Wf4 m c (Proc.devRef .tc main_arg0) := Wf5_of_ne m c main_arg0 (by decide)
    _ = V3 m c (Proc.devRef .tc main_arg0) := (Wf4_arr m c 1).trans (((dat0 (E3 m) c).arrAt_in 1 rfl _).trans (A_eq0 (E3 m) c 1))
    _ = V2 m c (Proc.devRef .tc main_arg0) := V3_of m c main_arg0 (by decide)
    _ = V1 m c (Proc.devRef .tc main_arg0) := V2_of m c main_arg0 (by decide)
    _ = V0 m c (Proc.devRef .tc main_arg0) := V1_of m c main_arg0 (by decide)
    _ = m ((c : Thread nD τ).loc main_arg0) := rfl
theorem Wf5_main_arg1 (c : Dev nD) : Wf5 m c (Proc.devRef .tc main_arg1) = m ((c : Thread nD τ).loc main_arg1) :=
  calc Wf5 m c (Proc.devRef .tc main_arg1)
    _ = Wf4 m c (Proc.devRef .tc main_arg1) := (Wf5_arr m c 0).trans (((dat1 (E4 m) c).arrAt_in 0 rfl _).trans (A_eq1 (E4 m) c 0))
    _ = V3 m c (Proc.devRef .tc main_arg1) := (Wf4_arr m c 0).trans (((dat0 (E3 m) c).arrAt_in 0 rfl _).trans (A_eq0 (E3 m) c 0))
    _ = V2 m c (Proc.devRef .tc main_arg1) := V3_of m c main_arg1 (by decide)
    _ = V1 m c (Proc.devRef .tc main_arg1) := V2_of m c main_arg1 (by decide)
    _ = V0 m c (Proc.devRef .tc main_arg1) := V1_of m c main_arg1 (by decide)
    _ = m ((c : Thread nD τ).loc main_arg1) := rfl
theorem Wf5_main_arg2 (c : Dev nD) : Wf5 m c (Proc.devRef .tc main_arg2) = m ((c : Thread nD τ).loc main_arg2) :=
  calc Wf5 m c (Proc.devRef .tc main_arg2)
    _ = Wf4 m c (Proc.devRef .tc main_arg2) := Wf5_of_ne m c main_arg2 (by decide)
    _ = V3 m c (Proc.devRef .tc main_arg2) := Wf4_of_ne m c main_arg2 (by decide)
    _ = V2 m c (Proc.devRef .tc main_arg2) := V3_of m c main_arg2 (by decide)
    _ = V1 m c (Proc.devRef .tc main_arg2) := V2_of m c main_arg2 (by decide)
    _ = V0 m c (Proc.devRef .tc main_arg2) := V1_of m c main_arg2 (by decide)
    _ = m ((c : Thread nD τ).loc main_arg2) := rfl
theorem Wf5_main_arg3 (c : Dev nD) : Wf5 m c (Proc.devRef .tc main_arg3) = m ((c : Thread nD τ).loc main_arg3) :=
  calc Wf5 m c (Proc.devRef .tc main_arg3)
    _ = Wf4 m c (Proc.devRef .tc main_arg3) := Wf5_of_ne m c main_arg3 (by decide)
    _ = V3 m c (Proc.devRef .tc main_arg3) := Wf4_of_ne m c main_arg3 (by decide)
    _ = V2 m c (Proc.devRef .tc main_arg3) := V3_of m c main_arg3 (by decide)
    _ = V1 m c (Proc.devRef .tc main_arg3) := V2_of m c main_arg3 (by decide)
    _ = V0 m c (Proc.devRef .tc main_arg3) := V1_of m c main_arg3 (by decide)
    _ = m ((c : Thread nD τ).loc main_arg3) := rfl
theorem Wf5_main_arg4 (c : Dev nD) : Wf5 m c (Proc.devRef .tc main_arg4) = m ((c : Thread nD τ).loc main_arg4) :=
  calc Wf5 m c (Proc.devRef .tc main_arg4)
    _ = Wf4 m c (Proc.devRef .tc main_arg4) := Wf5_of_ne m c main_arg4 (by decide)
    _ = V3 m c (Proc.devRef .tc main_arg4) := Wf4_of_ne m c main_arg4 (by decide)
    _ = V2 m c (Proc.devRef .tc main_arg4) := V3_of m c main_arg4 (by decide)
    _ = V1 m c (Proc.devRef .tc main_arg4) := V2_of m c main_arg4 (by decide)
    _ = V0 m c (Proc.devRef .tc main_arg4) := V1_of m c main_arg4 (by decide)
    _ = m ((c : Thread nD τ).loc main_arg4) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E4 m) c
abbrev 𝒱h : Variants := Variants.none
abbrev Lh : GSem nD τ sig → Finset Unit := fun _ => ∅
abbrev lvh : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (Wf5 m c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at what the write-backs
    leave at exit; the default invariant in, the default invariant out (the accumulator's value forgotten). -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ Lh lvh 0 fun _ _ => rfl
  pre c := iprop(StableHlo.held (c : Thread nD τ) (Pipeline.ucRefs τ sig) (V3 m c) ∗ R c)
  post c := iprop(StableHlo.held (c : Thread nD τ) (Pipeline.ucRefs τ sig) (Wf4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E3 m) c)
    unfold Pipeline.ΦA
    iintro ⟨Hp, -, Hr⟩
    isplitl [Hr]; · iexact Hr
    iexact Hp
  hout c := by
    rw [Pipeline.ownSems0_none]
    refine BIBase.Entails.trans (hout0 (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at what the write-backs
    leave at exit; the default invariant in, the default invariant out (the accumulator's value forgotten). -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ Lh lvh 1 fun _ _ => rfl
  pre c := iprop(StableHlo.held (c : Thread nD τ) (Pipeline.ucRefs τ sig) (Wf4 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E4 m) c)
    unfold Pipeline.ΦA
    iintro ⟨Hp, -, Hr⟩
    isplitl [Hr]; · iexact Hr
    iexact Hp
  hout c := by
    rw [Pipeline.ownSems0_none]
    refine BIBase.Entails.trans (hout1 (E4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev hsegs : List (Pipeline.Seg (pcfgs (F := F)) adm (pdats m) () defs₀ 𝒱h Lh lvh) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .region (reg1 m) ]
theorem main_run (c : Dev nD) : main (F := F) c = Pipeline.Seg.run (hsegs m) := (main_chain c).trans (by chain_rfl)

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wf5 m c b) :=
  Pipeline.θ_run_regions_kit (pcfgs (F := F)) adm (pdats m) () cellOf_inj emb₁ defs₀ 𝒱h Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tn m)
    (hch := ⟨fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wf5 m c b)
    (hfin := fun c s' => by
      iintro ⟨⟨Hh, -⟩, HSI⟩
      unfold StableHlo.held
      imodintro
      iapply (pointsTo_read_all (Pipeline.ucRefs τ sig) (fun b => (((c : Thread nD τ)).1, b)) (Wf5 m c) s')
      isplitl [Hh] <;> iassumption)
    (hQ := fun s h => h)

/-- The frame claim: every argument array ends as launched. -/
theorem frame_hand : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Wf5_main_arg0 m c),
     (h c _ (mem_uc main_arg1 (by decide))).trans (Wf5_main_arg1 m c),
     (h c _ (mem_uc main_arg2 (by decide))).trans (Wf5_main_arg2 m c),
     (h c _ (mem_uc main_arg3 (by decide))).trans (Wf5_main_arg3 m c),
     (h c _ (mem_uc main_arg4 (by decide))).trans (Wf5_main_arg4 m c)⟩) (run_all m ρ)

end Cert.Kernel.Gen

end
-- ==== Proof.KI.Base0.lean ====
/-
  Stage A (the first kernel region, a 8 x 4 grid: row tile m, contraction step k): what the runs of its body share.
  The body branches twice on the contraction step: at k = 0 it clears the accumulator scratch, at k = 3 it scales the
  accumulator by the weight column and stores the output tile.  So a grid point t = 4 m + k is in one of three cases:
  A (k = 0: clear, accumulate), B (k = 1, 2: accumulate), C (k = 3: accumulate, scale and store).  The output window
  is idle, and not written back, at the points of cases A and B.
-/
import proofs.«132790_j5755256177387_2_alg».proof.Proof.Gen.KernelIdeal.Launch
import proofs.«132790_j5755256177387_2_alg».proof.Proof.Gen.KernelIdeal.Skeleton
import proofs.«132790_j5755256177387_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the block index
    does not move between fetches), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's branch conditions, decided over the grid -/

/-- "the contraction step is 0" as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "the contraction step is 3" as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the step is not 3 the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The staging and scratch memrefs -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x256 .f32 := Memref.whole cc0_scratch0
abbrev VS0_0 : View sig .tc .vmem S1024x256 .f32 := scM0_0.view
abbrev VO0_3 : View sig .tc .vmem S1024x256 .f32 := (Memref.whole cc0_stg3_0 : Memref sig .tc .vmem S1024x256 .f32).view

/-- The region's default invariant with the accumulator as a memref owned at some contents; the other scoped
    buffers (the second region's) stay a rest `Rest0 c` that nothing here reads. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA Rest0; rw [scopedRest0_eq]; simp only [scM0_0, owns_whole]; try rfl

end Cert.KernelIdeal.Gen

end
-- ==== Proof.KI.Run0A.lean ====
/-
  Stage A's body run whole in case A (the contraction step is 0: the accumulator is cleared, then the step's product is added).  The inputs' staging buffers are handed back as
  found; the accumulator ends with the stores of the case written over it; the output tile's buffer, idle here, is handed back untouched.
-/
import proofs.«132790_j5755256177387_2_alg».proof.Proof.KI.Base0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : cond0_0 i) (hc1 : ¬cond0_1 i)
    (x0 : Vec F S2048x1024 .f32) (x1 : Vec F S8192x256 .f32) (x2 : Vec F S1024x1 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stageA_kernel i arg2 harg2 arg3 harg3 arg4 harg4 arg5 harg5 arg6 harg6) K } := by
  refine ⟨[], ?_, fun xi3 E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.Run0B.lean ====
/-
  Stage A's body run whole in case B (the contraction step is 1 or 2: the step's product is added to the accumulator).  The inputs' staging buffers are handed back as
  found; the accumulator ends with the stores of the case written over it; the output tile's buffer, idle here, is handed back untouched.
-/
import proofs.«132790_j5755256177387_2_alg».proof.Proof.KI.Base0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : ¬cond0_1 i)
    (x0 : Vec F S2048x1024 .f32) (x1 : Vec F S8192x256 .f32) (x2 : Vec F S1024x1 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__stageA_kernel i arg2 harg2 arg3 harg3 arg4 harg4 arg5 harg5 arg6 harg6) K } := by
  refine ⟨[], ?_, fun xi3 E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Gen

end
-- ==== Proof.KI.Run0C.lean ====
/-
  Stage A's body run whole in case C (the contraction step is 3: the step's product is added, then the accumulator times the weight column is stored as the output tile).  The inputs' staging buffers are handed back as
  found; the accumulator ends with the stores of the case written over it, and so does the output tile's buffer.
-/
import proofs.«132790_j5755256177387_2_alg».proof.Proof.KI.Base0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i)
    (x0 : Vec F S2048x1024 .f32) (x1 : Vec F S8192x256 .f32) (x2 : Vec F S1024x1 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__stageA_kernel i arg2 harg2 arg3 harg3 arg4 harg4 arg5 harg5 arg6 harg6) K } := by
  refine ⟨?_, ?_, fun E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Gen

end
-- ==== Proof.KI.Frame0.lean ====
/-
  Stage A: what the output tile's buffer and the accumulator hold after each grid point, by recursion on the point
  (the case the point is in, run on the point's input blocks; in cases B and C over the accumulator the point before
  left), the region's invariant carrying the accumulator at that value from point to point, the proof data, and the
  body obligation at a generic point.  The entry contents `V` of the core's buffers are a parameter.
-/
import proofs.«132790_j5755256177387_2_alg».proof.Proof.KI.Run0A
import proofs.«132790_j5755256177387_2_alg».proof.Proof.KI.Run0B
import proofs.«132790_j5755256177387_2_alg».proof.Proof.KI.Run0C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's stores into the accumulator cover it. -/
theorem scover0_A_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : cond0_0 i) (hc1 : ¬cond0_1 i)
    (x0 : Vec F S2048x1024 .f32) (x1 : Vec F S8192x256 .f32) (x2 : Vec F S1024x1 .f32) (y : S1024x256.Idx) :
    ∃ pc ∈ (kernelRun0_A c i a0 ha0 a1 ha1 a2 ha2 a3 ha3 asc hasc hc0 hc1 x0 x1 x2).2.1, y ∈ pc.1.set :=
  View.cover_of_tiledL (kernelRun0_A c i a0 ha0 a1 ha1 a2 ha2 a3 ha3 asc hasc hc0 hc1 x0 x1 x2).2.1 S1024x256.size (by sl_kernel_rfl) y

/-- What case A leaves in the accumulator: its stores read back. -/
def sout0_A_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : cond0_0 i) (hc1 : ¬cond0_1 i)
    (x0 : Vec F S2048x1024 .f32) (x1 : Vec F S8192x256 .f32) (x2 : Vec F S1024x1 .f32) : Vec F S1024x256 .f32 :=
  VS0_0.read (Elt F) (VS0_0.writes (Elt F) VS0_0.junk (kernelRun0_A c i a0 ha0 a1 ha1 a2 ha2 a3 ha3 asc hasc hc0 hc1 x0 x1 x2).2.1)

/-- Case B's stores into the accumulator cover it. -/
theorem scover0_B_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : ¬cond0_1 i)
    (x0 : Vec F S2048x1024 .f32) (x1 : Vec F S8192x256 .f32) (x2 : Vec F S1024x1 .f32) (xs0 : Vec F S1024x256 .f32) (y : S1024x256.Idx) :
    ∃ pc ∈ (kernelRun0_B c i a0 ha0 a1 ha1 a2 ha2 a3 ha3 asc hasc hc0 hc1 x0 x1 x2 xs0).2.1, y ∈ pc.1.set :=
  View.cover_of_tiledL (kernelRun0_B c i a0 ha0 a1 ha1 a2 ha2 a3 ha3 asc hasc hc0 hc1 x0 x1 x2 xs0).2.1 S1024x256.size (by sl_kernel_rfl) y

/-- What case B leaves in the accumulator: its stores read back. -/
def sout0_B_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : ¬cond0_1 i)
    (x0 : Vec F S2048x1024 .f32) (x1 : Vec F S8192x256 .f32) (x2 : Vec F S1024x1 .f32) (xs0 : Vec F S1024x256 .f32) : Vec F S1024x256 .f32 :=
  VS0_0.read (Elt F) (VS0_0.writes (Elt F) VS0_0.junk (kernelRun0_B c i a0 ha0 a1 ha1 a2 ha2 a3 ha3 asc hasc hc0 hc1 x0 x1 x2 xs0).2.1)

/-- Case C's stores into the accumulator cover it. -/
theorem scover0_C_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i)
    (x0 : Vec F S2048x1024 .f32) (x1 : Vec F S8192x256 .f32) (x2 : Vec F S1024x1 .f32) (xs0 : Vec F S1024x256 .f32) (y : S1024x256.Idx) :
    ∃ pc ∈ (kernelRun0_C c i a0 ha0 a1 ha1 a2 ha2 a3 ha3 asc hasc hc0 hc1 x0 x1 x2 xs0).2.1, y ∈ pc.1.set :=
  View.cover_of_tiledL (kernelRun0_C c i a0 ha0 a1 ha1 a2 ha2 a3 ha3 asc hasc hc0 hc1 x0 x1 x2 xs0).2.1 S1024x256.size (by sl_kernel_rfl) y

/-- What case C leaves in the accumulator: its stores read back. -/
def sout0_C_0 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i)
    (x0 : Vec F S2048x1024 .f32) (x1 : Vec F S8192x256 .f32) (x2 : Vec F S1024x1 .f32) (xs0 : Vec F S1024x256 .f32) : Vec F S1024x256 .f32 :=
  VS0_0.read (Elt F) (VS0_0.writes (Elt F) VS0_0.junk (kernelRun0_C c i a0 ha0 a1 ha1 a2 ha2 a3 ha3 asc hasc hc0 hc1 x0 x1 x2 xs0).2.1)

/-- Case C's stores into the output tile's buffer cover it. -/
theorem cover0_C_3 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i)
    (x0 : Vec F S2048x1024 .f32) (x1 : Vec F S8192x256 .f32) (x2 : Vec F S1024x1 .f32) (xs0 : Vec F S1024x256 .f32) (y : S1024x256.Idx) :
    ∃ pc ∈ (kernelRun0_C c i a0 ha0 a1 ha1 a2 ha2 a3 ha3 asc hasc hc0 hc1 x0 x1 x2 xs0).1, y ∈ pc.1.set :=
  View.cover_of_tiledL (kernelRun0_C c i a0 ha0 a1 ha1 a2 ha2 a3 ha3 asc hasc hc0 hc1 x0 x1 x2 xs0).1 S1024x256.size (by sl_kernel_rfl) y

/-- What case C leaves in the output tile's buffer: its stores read back. -/
def out0_C_3 (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i)
    (x0 : Vec F S2048x1024 .f32) (x1 : Vec F S8192x256 .f32) (x2 : Vec F S1024x1 .f32) (xs0 : Vec F S1024x256 .f32) : Vec F S1024x256 .f32 :=
  VO0_3.read (Elt F) (VO0_3.writes (Elt F) VO0_3.junk (kernelRun0_C c i a0 ha0 a1 ha1 a2 ha2 a3 ha3 asc hasc hc0 hc1 x0 x1 x2 xs0).1)

section
variable (V : (c : Dev nD) → (b : Ref sig .tc) → Buf (Elt F) ((c : Thread nD τ).loc b))

theorem nc10_of_mod0 (t : Fin cfg0.N) (h : t.val % 4 = 0) : ¬cond0_1 (grid0.coords t) :=
  fun h' => by have := (hcond0_1 t).mp h'; omega
theorem nc00_of_ne (t : Fin cfg0.N) (h : ¬t.val % 4 = 0) : ¬cond0_0 (grid0.coords t) :=
  fun h' => h ((hcond0_0 t).mp h')
theorem nc10_of_ne (t : Fin cfg0.N) (h : ¬t.val % 4 = 3) : ¬cond0_1 (grid0.coords t) :=
  fun h' => h ((hcond0_1 t).mp h')

/-- THE ACCUMULATION: (the output tile's buffer, the accumulator) after the body at position `n`. Where the point
    stores nothing into the output tile its component is a placeholder nothing reads. -/
def outsAt0 (c : Dev nD) : (n : ℕ) → n < cfg0.N → Vec F S1024x256 .f32 × Vec F S1024x256 .f32
  | 0, hn => (VO0_3.read (Elt F) VO0_3.junk,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (nc10_of_mod0 ⟨0, hn⟩ (Nat.zero_mod _)) (iblk0 V c 0 ⟨0, hn⟩) (iblk0 V c 1 ⟨0, hn⟩) (iblk0 V c 2 ⟨0, hn⟩))
  | n + 1, hn =>
    if h0 : (n + 1) % 4 = 0 then
      (VO0_3.read (Elt F) VO0_3.junk,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (nc10_of_mod0 ⟨n + 1, hn⟩ h0) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc00_of_ne ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc00_of_ne ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (VO0_3.read (Elt F) VO0_3.junk,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc00_of_ne ⟨n + 1, hn⟩ h0) (nc10_of_ne ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) :
    outsAt0 V c t.val t.isLt = (VO0_3.read (Elt F) VO0_3.junk, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (nc10_of_mod0 t h0) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (VO0_3.read (Elt F) VO0_3.junk, sout0_B_0 c (grid0.coords t) (ms0_0 t) (hs0_0 t) (ms0_1 t) (hs0_1 t) (ms0_2 t) (hs0_2 t) (ms0_3 t) (hs0_3 t) scM0_0 (Memref.isWhole_whole _) (nc00_of_ne t h0) (nc10_of_ne t h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (nc00_of_ne t h0) ((hcond0_1 t).mpr h1) (iblk0 V c 0 t) (iblk0 V c 1 t) (iblk0 V c 2 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (nc00_of_ne t h0) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the default one (every scoped buffer that is
    no staging buffer of this region at anything, the generator register at some state); afterwards the same with
    the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-- The proof data of this region on core `c`: the arrays as the region finds them; after the body at point `t` each
    input's buffer at its block and the output tile's at `outsAt0`; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's residue mod 4 says which case it is in;
    the invariant hands the body the accumulator at what the point before left (at anything at the first point) and
    takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat0 V c).leavesExact 3 t = owns (c : Thread nD τ) (ms0_3 t) fullShare ((dat0 V c).after 3 t) from by
          unfold Dat.leavesExact; rw [liveAt0_3 t ((hcond0_1 t).mpr h1)], after0_3]
      rw [outsAt0_C V c t h0 h1]
      unfold out0_C_3 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HR⟩, Hg⟩
  isplitl [HS0 HR]
  · isplitl [HS0]; · iexists _; iexact HS0
    iexact HR
  iexact Hg

end

end Cert.KernelIdeal.Gen

end
-- ==== Proof.KI.Base1.lean ====
/-
  Stage B (the second kernel region, a 8 x 4 grid: row tile m, contraction step k): what the runs of its body share.
  The body clears its accumulator scratch at k = 0, adds the step's product at every step, and at k = 3 stores the
  accumulator as the output tile.  A grid point t = 4 m + k is in case A (k = 0), B (k = 1, 2) or C (k = 3); the
  output window is idle, and not written back, at the points of cases A and B.
-/
import proofs.«132790_j5755256177387_2_alg».proof.Proof.Gen.KernelIdeal.Launch
import proofs.«132790_j5755256177387_2_alg».proof.Proof.Gen.KernelIdeal.Skeleton
import proofs.«132790_j5755256177387_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's branch conditions, decided over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging and scratch memrefs -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev scM1_0 : Memref sig .tc .vmem S1024x256 .f32 := Memref.whole cc1_scratch0
abbrev VS1_0 : View sig .tc .vmem S1024x256 .f32 := scM1_0.view
abbrev VO1_2 : View sig .tc .vmem S1024x256 .f32 := (Memref.whole cc1_stg2_0 : Memref sig .tc .vmem S1024x256 .f32).view

/-- The first region's scoped buffers, each at some contents (nothing here reads them), then `P`. -/
def Rest1With (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ P)

/-- The default invariant is the first region's scoped buffers, then this region's accumulator at some contents, and the
    generator register at some state. -/
theorem PhiA1_eq (c : Dev nD) :
    (Pipeline.ΦA spec1 c : sProp 𝕄)
      = iprop(Rest1With (F := F) c iprop(∃ d, owns (c : Thread nD τ) scM1_0 fullShare d) ∗ (∃ r, prngReg c r)) := by
  unfold Pipeline.ΦA Rest1With; rw [scopedRest1_eq]; simp only [scM1_0, owns_whole]; try rfl

end Cert.KernelIdeal.Gen

end
-- ==== Proof.KI.Run1A.lean ====
/-
  Stage B's body run whole in case A (the contraction step is 0: the accumulator is cleared, then the step's product is added).  The inputs' staging buffers are handed back as
  found; the accumulator ends with the stores of the case written over it; the output tile's buffer, idle here, is handed back untouched.
-/
import proofs.«132790_j5755256177387_2_alg».proof.Proof.KI.Base1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x2048 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S8192x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__stageB_kernel i arg2 harg2 arg3 harg3 arg4 harg4 arg5 harg5) K } := by
  refine ⟨[], ?_, fun xi2 E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gen

end
-- ==== Proof.KI.Run1B.lean ====
/-
  Stage B's body run whole in case B (the contraction step is 1 or 2: the step's product is added to the accumulator).  The inputs' staging buffers are handed back as
  found; the accumulator ends with the stores of the case written over it; the output tile's buffer, idle here, is handed back untouched.
-/
import proofs.«132790_j5755256177387_2_alg».proof.Proof.KI.Base1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x2048 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S8192x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__stageB_kernel i arg2 harg2 arg3 harg3 arg4 harg4 arg5 harg5) K } := by
  refine ⟨[], ?_, fun xi2 E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gen

end
-- ==== Proof.KI.Run1C.lean ====
/-
  Stage B's body run whole in case C (the contraction step is 3: the step's product is added, then the accumulator is stored as the output tile).  The inputs' staging buffers are handed back as
  found; the accumulator ends with the stores of the case written over it, and so does the output tile's buffer.
-/
import proofs.«132790_j5755256177387_2_alg».proof.Proof.KI.Base1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x2048 .f32) (harg2 : arg2.IsWhole) (arg3 : Memref sig .tc .vmem S8192x256 .f32) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S8192x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__stageB_kernel i arg2 harg2 arg3 harg3 arg4 harg4 arg5 harg5) K } := by
  refine ⟨?_, ?_, fun E K => ?run⟩
  case run =>
    simp only [cc1__stageB_kernel_eq_skeleton]; unfold cc1__stageB_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gen

end
-- ==== Proof.KI.Frame1.lean ====
/-
  Stage B: what the output tile's buffer and the accumulator hold after each grid point, by recursion on the point
  (the case the point is in, run on the point's input blocks; in cases B and C over the accumulator the point before
  left), the region's invariant carrying the accumulator at that value from point to point, the proof data, and the
  body obligation at a generic point.  The entry contents `V` of the core's buffers are a parameter.
-/
import proofs.«132790_j5755256177387_2_alg».proof.Proof.KI.Run1A
import proofs.«132790_j5755256177387_2_alg».proof.Proof.KI.Run1B
import proofs.«132790_j5755256177387_2_alg».proof.Proof.KI.Run1C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's stores into the accumulator cover it. -/
theorem scover1_A_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : cond1_0 i) (hc1 : ¬cond1_1 i)
    (x0 : Vec F S1024x2048 .f32) (x1 : Vec F S8192x256 .f32) (y : S1024x256.Idx) :
    ∃ pc ∈ (kernelRun1_A c i a0 ha0 a1 ha1 a2 ha2 asc hasc hc0 hc1 x0 x1).2.1, y ∈ pc.1.set :=
  View.cover_of_tiledL (kernelRun1_A c i a0 ha0 a1 ha1 a2 ha2 asc hasc hc0 hc1 x0 x1).2.1 S1024x256.size (by sl_kernel_rfl) y

/-- What case A leaves in the accumulator: its stores read back. -/
def sout1_A_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : cond1_0 i) (hc1 : ¬cond1_1 i)
    (x0 : Vec F S1024x2048 .f32) (x1 : Vec F S8192x256 .f32) : Vec F S1024x256 .f32 :=
  VS1_0.read (Elt F) (VS1_0.writes (Elt F) VS1_0.junk (kernelRun1_A c i a0 ha0 a1 ha1 a2 ha2 asc hasc hc0 hc1 x0 x1).2.1)

/-- Case B's stores into the accumulator cover it. -/
theorem scover1_B_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : ¬cond1_1 i)
    (x0 : Vec F S1024x2048 .f32) (x1 : Vec F S8192x256 .f32) (xs0 : Vec F S1024x256 .f32) (y : S1024x256.Idx) :
    ∃ pc ∈ (kernelRun1_B c i a0 ha0 a1 ha1 a2 ha2 asc hasc hc0 hc1 x0 x1 xs0).2.1, y ∈ pc.1.set :=
  View.cover_of_tiledL (kernelRun1_B c i a0 ha0 a1 ha1 a2 ha2 asc hasc hc0 hc1 x0 x1 xs0).2.1 S1024x256.size (by sl_kernel_rfl) y

/-- What case B leaves in the accumulator: its stores read back. -/
def sout1_B_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : ¬cond1_1 i)
    (x0 : Vec F S1024x2048 .f32) (x1 : Vec F S8192x256 .f32) (xs0 : Vec F S1024x256 .f32) : Vec F S1024x256 .f32 :=
  VS1_0.read (Elt F) (VS1_0.writes (Elt F) VS1_0.junk (kernelRun1_B c i a0 ha0 a1 ha1 a2 ha2 asc hasc hc0 hc1 x0 x1 xs0).2.1)

/-- Case C's stores into the accumulator cover it. -/
theorem scover1_C_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i)
    (x0 : Vec F S1024x2048 .f32) (x1 : Vec F S8192x256 .f32) (xs0 : Vec F S1024x256 .f32) (y : S1024x256.Idx) :
    ∃ pc ∈ (kernelRun1_C c i a0 ha0 a1 ha1 a2 ha2 asc hasc hc0 hc1 x0 x1 xs0).2.1, y ∈ pc.1.set :=
  View.cover_of_tiledL (kernelRun1_C c i a0 ha0 a1 ha1 a2 ha2 asc hasc hc0 hc1 x0 x1 xs0).2.1 S1024x256.size (by sl_kernel_rfl) y

/-- What case C leaves in the accumulator: its stores read back. -/
def sout1_C_0 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i)
    (x0 : Vec F S1024x2048 .f32) (x1 : Vec F S8192x256 .f32) (xs0 : Vec F S1024x256 .f32) : Vec F S1024x256 .f32 :=
  VS1_0.read (Elt F) (VS1_0.writes (Elt F) VS1_0.junk (kernelRun1_C c i a0 ha0 a1 ha1 a2 ha2 asc hasc hc0 hc1 x0 x1 xs0).2.1)

/-- Case C's stores into the output tile's buffer cover it. -/
theorem cover1_C_2 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i)
    (x0 : Vec F S1024x2048 .f32) (x1 : Vec F S8192x256 .f32) (xs0 : Vec F S1024x256 .f32) (y : S1024x256.Idx) :
    ∃ pc ∈ (kernelRun1_C c i a0 ha0 a1 ha1 a2 ha2 asc hasc hc0 hc1 x0 x1 xs0).1, y ∈ pc.1.set :=
  View.cover_of_tiledL (kernelRun1_C c i a0 ha0 a1 ha1 a2 ha2 asc hasc hc0 hc1 x0 x1 xs0).1 S1024x256.size (by sl_kernel_rfl) y

/-- What case C leaves in the output tile's buffer: its stores read back. -/
def out1_C_2 (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i)
    (x0 : Vec F S1024x2048 .f32) (x1 : Vec F S8192x256 .f32) (xs0 : Vec F S1024x256 .f32) : Vec F S1024x256 .f32 :=
  VO1_2.read (Elt F) (VO1_2.writes (Elt F) VO1_2.junk (kernelRun1_C c i a0 ha0 a1 ha1 a2 ha2 asc hasc hc0 hc1 x0 x1 xs0).1)

section
variable (V : (c : Dev nD) → (b : Ref sig .tc) → Buf (Elt F) ((c : Thread nD τ).loc b))

theorem nc11_of_mod0 (t : Fin cfg1.N) (h : t.val % 4 = 0) : ¬cond1_1 (grid1.coords t) :=
  fun h' => by have := (hcond1_1 t).mp h'; omega
theorem nc01_of_ne (t : Fin cfg1.N) (h : ¬t.val % 4 = 0) : ¬cond1_0 (grid1.coords t) :=
  fun h' => h ((hcond1_0 t).mp h')
theorem nc11_of_ne (t : Fin cfg1.N) (h : ¬t.val % 4 = 3) : ¬cond1_1 (grid1.coords t) :=
  fun h' => h ((hcond1_1 t).mp h')

/-- THE ACCUMULATION: (the output tile's buffer, the accumulator) after the body at position `n`. Where the point
    stores nothing into the output tile its component is a placeholder nothing reads. -/
def outsAt1 (c : Dev nD) : (n : ℕ) → n < cfg1.N → Vec F S1024x256 .f32 × Vec F S1024x256 .f32
  | 0, hn => (VO1_2.read (Elt F) VO1_2.junk,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (nc11_of_mod0 ⟨0, hn⟩ (Nat.zero_mod _)) (iblk1 V c 0 ⟨0, hn⟩) (iblk1 V c 1 ⟨0, hn⟩))
  | n + 1, hn =>
    if h0 : (n + 1) % 4 = 0 then
      (VO1_2.read (Elt F) VO1_2.junk,
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (nc11_of_mod0 ⟨n + 1, hn⟩ h0) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nc01_of_ne ⟨n + 1, hn⟩ h0) ((hcond1_1 ⟨n + 1, hn⟩).mpr h1) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nc01_of_ne ⟨n + 1, hn⟩ h0) ((hcond1_1 ⟨n + 1, hn⟩).mpr h1) (iblk1 V c 0 ⟨n + 1, hn⟩) (iblk1 V c 1 ⟨n + 1, hn⟩) (outsAt1 c n (Nat.lt_of_succ_lt hn)).2)
      else
        (VO1_2.read (Elt F) VO1_2.junk,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (nc01_of_ne ⟨n + 1, hn⟩ h0) (nc11_of_ne ⟨n + 1, hn⟩ h1) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) :
    outsAt1 V c t.val t.isLt = (VO1_2.read (Elt F) VO1_2.junk, sout1_A_0 c (grid1.coords t) (ms1_0 t) (hs1_0 t) (ms1_1 t) (hs1_1 t) (ms1_2 t) (hs1_2 t) scM1_0 (Memref.isWhole_whole _) ((hcond1_0 t).mpr h0) (nc11_of_mod0 t h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (VO1_2.read (Elt F) VO1_2.junk, sout1_B_0 c (grid1.coords t) (ms1_0 t) (hs1_0 t) (ms1_1 t) (hs1_1 t) (ms1_2 t) (hs1_2 t) scM1_0 (Memref.isWhole_whole _) (nc01_of_ne t h0) (nc11_of_ne t h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (nc01_of_ne t h0) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (nc01_of_ne t h0) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the default one (every scoped buffer that is
    no staging buffer of this region at anything, the generator register at some state); afterwards the same with
    the accumulator at what the point before left in it. -/
def PhiS1 (c : Dev nD) : (n : ℕ) → n ≤ cfg1.N → sProp 𝕄
  | 0, _ => Pipeline.ΦA spec1 c
  | n + 1, hn => iprop(Rest1With (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(Rest1With (F := F) c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(Rest1With (F := F) c (owns (c : Thread nD τ) scM1_0 fullShare ((outsAt1 V c (n - 1) (by omega)).2)) ∗ (∃ r, prngReg c r)) := by
  cases n with
  | zero => exact absurd rfl hz
  | succ n => rfl

/-- The proof data of this region on core `c`: the arrays as the region finds them; after the body at point `t` each
    input's buffer at its block and the output tile's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's residue mod 4 says which case it is in;
    the invariant hands the body the accumulator at what the point before left (at anything at the first point) and
    takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0]
    unfold sout1_A_0; (try dsimp only)
    by_cases hz : t.val = 0
    · rw [PhiS1_castSucc V c t, PhiS1_zero V c _ _ hz, PhiA1_eq]
      unfold Rest1With
      iintro ⟨⟨⟨Hr1, Hr2, Hr3, Hr4, Hr5, Hr6, Hr7, Hr8, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr1 Hr2 Hr3 Hr4 Hr5 Hr6 Hr7 Hr8 Hg]
      · isplitl [HS0 Hr1 Hr2 Hr3 Hr4 Hr5 Hr6 Hr7 Hr8]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      unfold Rest1With
      iintro ⟨⟨⟨Hr1, Hr2, Hr3, Hr4, Hr5, Hr6, Hr7, Hr8, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr1 Hr2 Hr3 Hr4 Hr5 Hr6 Hr7 Hr8 Hg]
      · isplitl [HS0 Hr1 Hr2 Hr3 Hr4 Hr5 Hr6 Hr7 Hr8]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
          unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      unfold Rest1With
      iintro ⟨⟨⟨Hr1, Hr2, Hr3, Hr4, Hr5, Hr6, Hr7, Hr8, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr1 Hr2 Hr3 Hr4 Hr5 Hr6 Hr7 Hr8 Hg]
      · isplitl [HS0 Hr1 Hr2 Hr3 Hr4 Hr5 Hr6 Hr7 Hr8]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      unfold Rest1With
      iintro ⟨⟨⟨Hr1, Hr2, Hr3, Hr4, Hr5, Hr6, Hr7, Hr8, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr1 Hr2 Hr3 Hr4 Hr5 Hr6 Hr7 Hr8 Hg]
      · isplitl [HS0 Hr1 Hr2 Hr3 Hr4 Hr5 Hr6 Hr7 Hr8]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  unfold Rest1With
  iintro ⟨⟨Hr1, Hr2, Hr3, Hr4, Hr5, Hr6, Hr7, Hr8, HS0⟩, Hg⟩
  isplitl [HS0 Hr1 Hr2 Hr3 Hr4 Hr5 Hr6 Hr7 Hr8]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexists _; iexact HS0
  iexact Hg

end

end Cert.KernelIdeal.Gen

end
-- ==== Proof.KI.Run.lean ====
/-
  The whole program's run.  Between two items of @main the core holds every unscoped buffer at a known value: the
  launch memory, then each stretch of host operations applied in order, then after each kernel region its arrays at
  what its write-backs leave (its inputs as entered, its output tile by tile) and every other buffer as entered.  The
  launch runs the five items in order and reads every unscoped buffer back at the last of these values; the frame
  claim and the value of the result are read off that.
-/
import proofs.«132790_j5755256177387_2_alg».proof.Proof.KI.Frame0
import proofs.«132790_j5755256177387_2_alg».proof.Proof.KI.Frame1
import proofs.«132790_j5755256177387_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the region boundaries -/

/-- Region 0's entry contents read at the core's references. -/
abbrev E3 : (c : Dev nD) → (b : Ref sig .tc) → Buf (Elt F) ((c : Thread nD τ).loc b) := fun c b => V3 m c b
/-- At region 0's exit. -/
def Wf4 (c : Dev nD) : Valuation τ sig (Elt F) :=
  Pipeline.withArrays spec0 c (V3 m c) fun w => (dat0 (E3 m) c).arrAt w cfg0.N
theorem Wf4_arr (c : Dev nD) (w : Fin cfg0.W) :
    Wf4 m c (Proc.devRef .tc (Pipeline.arrRef spec0 w)) = (dat0 (E3 m) c).arrAt w cfg0.N := by
  unfold Wf4; exact Pipeline.withArrays_arr spec0 launch0.win.arr_inj c _ _ w
theorem Wf4_of_ne (c : Dev nD) (b : Ref sig .tc) (hb : ∀ w, Pipeline.arrRef spec0 w ≠ b) :
    Wf4 m c (Proc.devRef .tc b) = V3 m c (Proc.devRef .tc b) := by
  unfold Wf4; exact Pipeline.withArrays_of_ne spec0 c _ _ b hb
abbrev E4 : (c : Dev nD) → (b : Ref sig .tc) → Buf (Elt F) ((c : Thread nD τ).loc b) := fun c b => Wf4 m c b
theorem hF0 (c : Dev nD) (w : Fin cfg0.W) : (dat0 (E3 m) c).arrAt w cfg0.N = E4 m c (Pipeline.arrRef spec0 w) :=
  (Wf4_arr m c w).symm
theorem hrest0 (c : Dev nD) : ∀ b, b ∉ Finset.univ.image (Pipeline.arrRef spec0) → E4 m c b = E3 m c b :=
  fun b hb => Wf4_of_ne m c b fun w e => hb (Finset.mem_image.mpr ⟨w, Finset.mem_univ _, e⟩)

/-- At region 1's exit. -/
def Wf5 (c : Dev nD) : Valuation τ sig (Elt F) :=
  Pipeline.withArrays spec1 c (Wf4 m c) fun w => (dat1 (E4 m) c).arrAt w cfg1.N
theorem Wf5_arr (c : Dev nD) (w : Fin cfg1.W) :
    Wf5 m c (Proc.devRef .tc (Pipeline.arrRef spec1 w)) = (dat1 (E4 m) c).arrAt w cfg1.N := by
  unfold Wf5; exact Pipeline.withArrays_arr spec1 launch1.win.arr_inj c _ _ w
theorem Wf5_of_ne (c : Dev nD) (b : Ref sig .tc) (hb : ∀ w, Pipeline.arrRef spec1 w ≠ b) :
    Wf5 m c (Proc.devRef .tc b) = Wf4 m c (Proc.devRef .tc b) := by
  unfold Wf5; exact Pipeline.withArrays_of_ne spec1 c _ _ b hb
abbrev E5 : (c : Dev nD) → (b : Ref sig .tc) → Buf (Elt F) ((c : Thread nD τ).loc b) := fun c b => Wf5 m c b
theorem hF1 (c : Dev nD) (w : Fin cfg1.W) : (dat1 (E4 m) c).arrAt w cfg1.N = E5 m c (Pipeline.arrRef spec1 w) :=
  (Wf5_arr m c w).symm
theorem hrest1 (c : Dev nD) : ∀ b, b ∉ Finset.univ.image (Pipeline.arrRef spec1) → E5 m c b = E4 m c b :=
  fun b hb => Wf5_of_ne m c b fun w e => hb (Finset.mem_image.mpr ⟨w, Finset.mem_univ _, e⟩)

/-! ## The arguments end as launched -/

theorem Wf5_main_arg0 (c : Dev nD) : Wf5 m c (Proc.devRef .tc main_arg0) = m ((c : Thread nD τ).loc main_arg0) :=
  calc Wf5 m c (Proc.devRef .tc main_arg0)
    _ = Wf4 m c (Proc.devRef .tc main_arg0) := Wf5_of_ne m c main_arg0 (by decide)
    _ = V3 m c (Proc.devRef .tc main_arg0) := (Wf4_arr m c 1).trans (((dat0 (E3 m) c).arrAt_in 1 rfl _).trans (A_eq0 (E3 m) c 1))
    _ = V2 m c (Proc.devRef .tc main_arg0) := V3_of m c main_arg0 (by decide)
    _ = V1 m c (Proc.devRef .tc main_arg0) := V2_of m c main_arg0 (by decide)
    _ = V0 m c (Proc.devRef .tc main_arg0) := V1_of m c main_arg0 (by decide)
    _ = m ((c : Thread nD τ).loc main_arg0) := rfl
theorem Wf5_main_arg1 (c : Dev nD) : Wf5 m c (Proc.devRef .tc main_arg1) = m ((c : Thread nD τ).loc main_arg1) :=
  calc Wf5 m c (Proc.devRef .tc main_arg1)
    _ = Wf4 m c (Proc.devRef .tc main_arg1) := (Wf5_arr m c 0).trans (((dat1 (E4 m) c).arrAt_in 0 rfl _).trans (A_eq1 (E4 m) c 0))
    _ = V3 m c (Proc.devRef .tc main_arg1) := (Wf4_arr m c 0).trans (((dat0 (E3 m) c).arrAt_in 0 rfl _).trans (A_eq0 (E3 m) c 0))
    _ = V2 m c (Proc.devRef .tc main_arg1) := V3_of m c main_arg1 (by decide)
    _ = V1 m c (Proc.devRef .tc main_arg1) := V2_of m c main_arg1 (by decide)
    _ = V0 m c (Proc.devRef .tc main_arg1) := V1_of m c main_arg1 (by decide)
    _ = m ((c : Thread nD τ).loc main_arg1) := rfl
theorem Wf5_main_arg2 (c : Dev nD) : Wf5 m c (Proc.devRef .tc main_arg2) = m ((c : Thread nD τ).loc main_arg2) :=
  calc Wf5 m c (Proc.devRef .tc main_arg2)
    _ = Wf4 m c (Proc.devRef .tc main_arg2) := Wf5_of_ne m c main_arg2 (by decide)
    _ = V3 m c (Proc.devRef .tc main_arg2) := Wf4_of_ne m c main_arg2 (by decide)
    _ = V2 m c (Proc.devRef .tc main_arg2) := V3_of m c main_arg2 (by decide)
    _ = V1 m c (Proc.devRef .tc main_arg2) := V2_of m c main_arg2 (by decide)
    _ = V0 m c (Proc.devRef .tc main_arg2) := V1_of m c main_arg2 (by decide)
    _ = m ((c : Thread nD τ).loc main_arg2) := rfl
theorem Wf5_main_arg3 (c : Dev nD) : Wf5 m c (Proc.devRef .tc main_arg3) = m ((c : Thread nD τ).loc main_arg3) :=
  calc Wf5 m c (Proc.devRef .tc main_arg3)
    _ = Wf4 m c (Proc.devRef .tc main_arg3) := Wf5_of_ne m c main_arg3 (by decide)
    _ = V3 m c (Proc.devRef .tc main_arg3) := Wf4_of_ne m c main_arg3 (by decide)
    _ = V2 m c (Proc.devRef .tc main_arg3) := V3_of m c main_arg3 (by decide)
    _ = V1 m c (Proc.devRef .tc main_arg3) := V2_of m c main_arg3 (by decide)
    _ = V0 m c (Proc.devRef .tc main_arg3) := V1_of m c main_arg3 (by decide)
    _ = m ((c : Thread nD τ).loc main_arg3) := rfl
theorem Wf5_main_arg4 (c : Dev nD) : Wf5 m c (Proc.devRef .tc main_arg4) = m ((c : Thread nD τ).loc main_arg4) :=
  calc Wf5 m c (Proc.devRef .tc main_arg4)
    _ = Wf4 m c (Proc.devRef .tc main_arg4) := Wf5_of_ne m c main_arg4 (by decide)
    _ = V3 m c (Proc.devRef .tc main_arg4) := Wf4_of_ne m c main_arg4 (by decide)
    _ = V2 m c (Proc.devRef .tc main_arg4) := V3_of m c main_arg4 (by decide)
    _ = V1 m c (Proc.devRef .tc main_arg4) := V2_of m c main_arg4 (by decide)
    _ = V0 m c (Proc.devRef .tc main_arg4) := V1_of m c main_arg4 (by decide)
    _ = m ((c : Thread nD τ).loc main_arg4) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E4 m) c
abbrev 𝒱h : Variants := Variants.none
abbrev Lh : GSem nD τ sig → Finset Unit := fun _ => ∅
abbrev lvh : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (Wf5 m c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at what the write-backs
    leave at exit; the default invariant in, the default invariant out (the accumulator's value forgotten). -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ Lh lvh 0 fun _ _ => rfl
  pre c := iprop(StableHlo.held (c : Thread nD τ) (Pipeline.ucRefs τ sig) (V3 m c) ∗ R c)
  post c := iprop(StableHlo.held (c : Thread nD τ) (Pipeline.ucRefs τ sig) (Wf4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E3 m) c)
    unfold Pipeline.ΦA
    iintro ⟨Hp, -, Hr⟩
    isplitl [Hr]; · iexact Hr
    iexact Hp
  hout c := by
    rw [Pipeline.ownSems0_none]
    refine BIBase.Entails.trans (hout0 (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at what the write-backs
    leave at exit; the default invariant in, the default invariant out (the accumulator's value forgotten). -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ Lh lvh 1 fun _ _ => rfl
  pre c := iprop(StableHlo.held (c : Thread nD τ) (Pipeline.ucRefs τ sig) (Wf4 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E4 m) c)
    unfold Pipeline.ΦA
    iintro ⟨Hp, -, Hr⟩
    isplitl [Hr]; · iexact Hr
    iexact Hp
  hout c := by
    rw [Pipeline.ownSems0_none]
    refine BIBase.Entails.trans (hout1 (E4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev hsegs : List (Pipeline.Seg (pcfgs (F := F)) adm (pdats m) () defs₀ 𝒱h Lh lvh) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .region (reg1 m) ]
theorem main_run (c : Dev nD) : main (F := F) c = Pipeline.Seg.run (hsegs m) := (main_chain c).trans (by chain_rfl)

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wf5 m c b) :=
  Pipeline.θ_run_regions_kit (pcfgs (F := F)) adm (pdats m) () cellOf_inj emb₁ defs₀ 𝒱h Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tn m)
    (hch := ⟨fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wf5 m c b)
    (hfin := fun c s' => by
      iintro ⟨⟨Hh, -⟩, HSI⟩
      unfold StableHlo.held
      imodintro
      iapply (pointsTo_read_all (Pipeline.ucRefs τ sig) (fun b => (((c : Thread nD τ)).1, b)) (Wf5 m c) s')
      isplitl [Hh] <;> iassumption)
    (hQ := fun s h => h)

/-- The frame claim: every argument array ends as launched. -/
theorem frame_hand : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Wf5_main_arg0 m c),
     (h c _ (mem_uc main_arg1 (by decide))).trans (Wf5_main_arg1 m c),
     (h c _ (mem_uc main_arg2 (by decide))).trans (Wf5_main_arg2 m c),
     (h c _ (mem_uc main_arg3 (by decide))).trans (Wf5_main_arg3 m c),
     (h c _ (mem_uc main_arg4 (by decide))).trans (Wf5_main_arg4 m c)⟩) (run_all m ρ)

end Cert.KernelIdeal.Gen

end
-- ==== Proof.KI.Pieces.lean ====
/-
  What each case of the two kernel bodies leaves, read back as values: the accumulator ends at the step's payload of the
  point's U tile, the 2048 rows of the resident operand at the step's offset, and the accumulator it started from (zero
  in case A); in case C the output tile ends at the epilogue's payload of the new accumulator.
-/
import proofs.«132790_j5755256177387_2_alg».proof.Proof.KI.Frame0
import proofs.«132790_j5755256177387_2_alg».proof.Proof.KI.Frame1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The 2048 rows of the resident operand the body loads at grid coordinates `i`. -/
def xsl0 (i : grid0.Coords) (x1 : Vec F S8192x256 .f32) : Vec F S2048x256 .f32 :=
  View.ld x1 (Rect.unit (s := S8192x256) (k0_off1 i) S2048x256.size (k0_off1_inb i))
def xsl1 (i : grid1.Coords) (x1 : Vec F S8192x256 .f32) : Vec F S2048x256 .f32 :=
  View.ld x1 (Rect.unit (s := S8192x256) (k1_off1 i) S2048x256.size (k1_off1_inb i))

/-! ## Stage A -/

theorem soutA0_eq (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : cond0_0 i) (hc1 : ¬cond0_1 i) (x0 : Vec F S2048x1024 .f32) (x1 : Vec F S8192x256 .f32) (x2 : Vec F S1024x1 .f32) :
    sout0_A_0 c i a0 ha0 a1 ha1 a2 ha2 a3 ha3 asc hasc hc0 hc1 x0 x1 x2 = k0_pay2 x0 (xsl0 i x1) (k0_pay1 (F := F)) := by
  unfold sout0_A_0
  rw [View.read_writes_eq_canon _ _ _ (scover0_A_0 c i a0 ha0 a1 ha1 a2 ha2 a3 ha3 asc hasc hc0 hc1 x0 x1 x2)]
  unfold kernelRun0_A
  dsimp only
  sl_unfold_words
  rw [View.canon_cons_unit_zero (S := S1024x256) hz2, View.readCov_unit_zero (S := S1024x256) _ hz2]
  simp only [View.readAt_eq_ld, ha0.read_unread, ha1.read_unread, View.ld_unit_zero (S := S2048x1024) hz2]
  rfl

theorem soutB0_eq (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : ¬cond0_1 i) (x0 : Vec F S2048x1024 .f32) (x1 : Vec F S8192x256 .f32) (x2 : Vec F S1024x1 .f32) (xs0 : Vec F S1024x256 .f32) :
    sout0_B_0 c i a0 ha0 a1 ha1 a2 ha2 a3 ha3 asc hasc hc0 hc1 x0 x1 x2 xs0 = k0_pay2 x0 (xsl0 i x1) xs0 := by
  unfold sout0_B_0
  rw [View.read_writes_eq_canon _ _ _ (scover0_B_0 c i a0 ha0 a1 ha1 a2 ha2 a3 ha3 asc hasc hc0 hc1 x0 x1 x2 xs0)]
  unfold kernelRun0_B
  dsimp only
  try sl_unfold_words
  rw [View.canon_unit_zero (S := S1024x256) hz2]
  simp only [View.readAt_eq_ld, ha0.read_unread, ha1.read_unread, hasc.read_unread, View.ld_unit_zero (S := S2048x1024) hz2, View.ld_unit_zero (S := S1024x256) hz2]
  rfl

theorem soutC0_eq (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i) (x0 : Vec F S2048x1024 .f32) (x1 : Vec F S8192x256 .f32) (x2 : Vec F S1024x1 .f32) (xs0 : Vec F S1024x256 .f32) :
    sout0_C_0 c i a0 ha0 a1 ha1 a2 ha2 a3 ha3 asc hasc hc0 hc1 x0 x1 x2 xs0 = k0_pay2 x0 (xsl0 i x1) xs0 := by
  unfold sout0_C_0
  rw [View.read_writes_eq_canon _ _ _ (scover0_C_0 c i a0 ha0 a1 ha1 a2 ha2 a3 ha3 asc hasc hc0 hc1 x0 x1 x2 xs0)]
  unfold kernelRun0_C
  dsimp only
  try sl_unfold_words
  rw [View.canon_unit_zero (S := S1024x256) hz2]
  simp only [View.readAt_eq_ld, ha0.read_unread, ha1.read_unread, hasc.read_unread, View.ld_unit_zero (S := S2048x1024) hz2, View.ld_unit_zero (S := S1024x256) hz2]
  rfl

theorem outC0_eq (c : Dev nD) (i : grid0.Coords) (a0 : Memref sig .tc .vmem S2048x1024 .f32) (ha0 : a0.IsWhole) (a1 : Memref sig .tc .vmem S8192x256 .f32) (ha1 : a1.IsWhole) (a2 : Memref sig .tc .vmem S1024x1 .f32) (ha2 : a2.IsWhole) (a3 : Memref sig .tc .vmem S1024x256 .f32) (ha3 : a3.IsWhole) (asc : Memref sig .tc .vmem S1024x256 .f32) (hasc : asc.IsWhole) (hc0 : ¬cond0_0 i) (hc1 : cond0_1 i) (x0 : Vec F S2048x1024 .f32) (x1 : Vec F S8192x256 .f32) (x2 : Vec F S1024x1 .f32) (xs0 : Vec F S1024x256 .f32) :
    out0_C_3 c i a0 ha0 a1 ha1 a2 ha2 a3 ha3 asc hasc hc0 hc1 x0 x1 x2 xs0 = k0_pay3 (k0_pay2 x0 (xsl0 i x1) xs0) x2 := by
  unfold out0_C_3
  rw [View.read_writes_eq_canon _ _ _ (cover0_C_3 c i a0 ha0 a1 ha1 a2 ha2 a3 ha3 asc hasc hc0 hc1 x0 x1 x2 xs0)]
  unfold kernelRun0_C
  dsimp only
  sl_unfold_words
  rw [View.canon_unit_zero (S := S1024x256) hz2, View.readCov_unit_zero (S := S1024x256) _ hz2]
  simp only [View.readAt_eq_ld, ha0.read_unread, ha1.read_unread, ha2.read_unread, hasc.read_unread, View.ld_unit_zero (S := S2048x1024) hz2, View.ld_unit_zero (S := S1024x256) hz2, View.ld_unit_zero (S := S1024x1) hz2]
  rfl

/-! ## Stage B -/

theorem soutA1_eq (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : cond1_0 i) (hc1 : ¬cond1_1 i) (x0 : Vec F S1024x2048 .f32) (x1 : Vec F S8192x256 .f32) :
    sout1_A_0 c i a0 ha0 a1 ha1 a2 ha2 asc hasc hc0 hc1 x0 x1 = k1_pay2 x0 (xsl1 i x1) (k1_pay1 (F := F)) := by
  unfold sout1_A_0
  rw [View.read_writes_eq_canon _ _ _ (scover1_A_0 c i a0 ha0 a1 ha1 a2 ha2 asc hasc hc0 hc1 x0 x1)]
  unfold kernelRun1_A
  dsimp only
  sl_unfold_words
  rw [View.canon_cons_unit_zero (S := S1024x256) hz2, View.readCov_unit_zero (S := S1024x256) _ hz2]
  simp only [View.readAt_eq_ld, ha0.read_unread, ha1.read_unread, View.ld_unit_zero (S := S1024x2048) hz2]
  rfl

theorem soutB1_eq (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : ¬cond1_1 i) (x0 : Vec F S1024x2048 .f32) (x1 : Vec F S8192x256 .f32) (xs0 : Vec F S1024x256 .f32) :
    sout1_B_0 c i a0 ha0 a1 ha1 a2 ha2 asc hasc hc0 hc1 x0 x1 xs0 = k1_pay2 x0 (xsl1 i x1) xs0 := by
  unfold sout1_B_0
  rw [View.read_writes_eq_canon _ _ _ (scover1_B_0 c i a0 ha0 a1 ha1 a2 ha2 asc hasc hc0 hc1 x0 x1 xs0)]
  unfold kernelRun1_B
  dsimp only
  try sl_unfold_words
  rw [View.canon_unit_zero (S := S1024x256) hz2]
  simp only [View.readAt_eq_ld, ha0.read_unread, ha1.read_unread, hasc.read_unread, View.ld_unit_zero (S := S1024x2048) hz2, View.ld_unit_zero (S := S1024x256) hz2]
  rfl

theorem soutC1_eq (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i) (x0 : Vec F S1024x2048 .f32) (x1 : Vec F S8192x256 .f32) (xs0 : Vec F S1024x256 .f32) :
    sout1_C_0 c i a0 ha0 a1 ha1 a2 ha2 asc hasc hc0 hc1 x0 x1 xs0 = k1_pay2 x0 (xsl1 i x1) xs0 := by
  unfold sout1_C_0
  rw [View.read_writes_eq_canon _ _ _ (scover1_C_0 c i a0 ha0 a1 ha1 a2 ha2 asc hasc hc0 hc1 x0 x1 xs0)]
  unfold kernelRun1_C
  dsimp only
  try sl_unfold_words
  rw [View.canon_unit_zero (S := S1024x256) hz2]
  simp only [View.readAt_eq_ld, ha0.read_unread, ha1.read_unread, hasc.read_unread, View.ld_unit_zero (S := S1024x2048) hz2, View.ld_unit_zero (S := S1024x256) hz2]
  rfl

theorem outC1_eq (c : Dev nD) (i : grid1.Coords) (a0 : Memref sig .tc .vmem S1024x2048 .f32) (ha0 : a0.IsWhole) (a1 : Memref sig .tc .vmem S8192x256 .f32) (ha1 : a1.IsWhole) (a2 : Memref sig .tc .vmem S1024x256 .f32) (ha2 : a2.IsWhole) (asc : Memref sig .tc .vmem S1024x256 .f32) (hasc : asc.IsWhole) (hc0 : ¬cond1_0 i) (hc1 : cond1_1 i) (x0 : Vec F S1024x2048 .f32) (x1 : Vec F S8192x256 .f32) (xs0 : Vec F S1024x256 .f32) :
    out1_C_2 c i a0 ha0 a1 ha1 a2 ha2 asc hasc hc0 hc1 x0 x1 xs0 = k1_pay2 x0 (xsl1 i x1) xs0 := by
  unfold out1_C_2
  rw [View.read_writes_eq_canon _ _ _ (cover1_C_2 c i a0 ha0 a1 ha1 a2 ha2 asc hasc hc0 hc1 x0 x1 xs0)]
  unfold kernelRun1_C
  dsimp only
  sl_unfold_words
  rw [View.canon_unit_zero (S := S1024x256) hz2, View.readCov_unit_zero (S := S1024x256) _ hz2]
  simp only [View.readAt_eq_ld, ha0.read_unread, ha1.read_unread, hasc.read_unread, View.ld_unit_zero (S := S1024x2048) hz2, View.ld_unit_zero (S := S1024x256) hz2]
  rfl

end Cert.KernelIdeal.Gen

end
-- ==== Proof.KI.Blocks.lean ====
/-
  The kernel regions' input blocks, read at an index of the whole array.  Both regions walk an 8 x 4 grid; a point
  t = 4 m + k has row tile m = t / 4 and contraction step k = t % 4.  A block's coordinate on an axis is the block
  index times the block's extent plus the coordinate inside the block, and the block indices are the printed index
  maps, decided once over the 32 points.
  First region: the matrix window's block [2048, 1024] at t is rows k * 2048 .., columns m * 1024 .. of U; the
  resident operand's block is all of x; the weight column's block [1024, 1] is rows m * 1024 ...
  Second region: the matrix window's block [1024, 2048] at t is rows m * 1024 .., columns k * 2048 .. of U; the
  resident operand's block is the whole intermediate array.
  Each body loads from its resident operand the 2048 rows from k * 2048 on.
-/
import proofs.«132790_j5755256177387_2_alg».proof.Proof.KI.Base0
import proofs.«132790_j5755256177387_2_alg».proof.Proof.KI.Base1
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The printed index maps, decided over the grid -/

/-- First region, the matrix window: block row = contraction step, block column = row tile. -/
theorem idx0_0 : ∀ t : Fin cfg0.N, win0_0.index t (0 : Fin 2) = t.val % 4 ∧ win0_0.index t (1 : Fin 2) = t.val / 4 :=
  (by decide +kernel : ∀ t : Fin grid0.N, _)
/-- First region, the resident operand: one block, the whole array. -/
theorem idx0_1 : ∀ t : Fin cfg0.N, win0_1.index t (0 : Fin 2) = 0 ∧ win0_1.index t (1 : Fin 2) = 0 :=
  (by decide +kernel : ∀ t : Fin grid0.N, _)
/-- First region, the weight column: block row = row tile. -/
theorem idx0_2 : ∀ t : Fin cfg0.N, win0_2.index t (0 : Fin 2) = t.val / 4 ∧ win0_2.index t (1 : Fin 2) = 0 :=
  (by decide +kernel : ∀ t : Fin grid0.N, _)

/-- The rows the first body loads from its resident operand start at the contraction step times 2048. -/
theorem off0 : ∀ t : Fin cfg0.N, k0_off1 (grid0.coords t) = ![(t.val % 4) * 2048, 0] :=
  (by decide +kernel : ∀ t : Fin grid0.N, _)

/-- Second region, the matrix window: block row = row tile, block column = contraction step. -/
theorem idx1_0 : ∀ t : Fin cfg1.N, win1_0.index t (0 : Fin 2) = t.val / 4 ∧ win1_0.index t (1 : Fin 2) = t.val % 4 :=
  (by decide +kernel : ∀ t : Fin grid1.N, _)
/-- Second region, the resident operand: one block, the whole array. -/
theorem idx1_1 : ∀ t : Fin cfg1.N, win1_1.index t (0 : Fin 2) = 0 ∧ win1_1.index t (1 : Fin 2) = 0 :=
  (by decide +kernel : ∀ t : Fin grid1.N, _)

/-- The rows the second body loads from its resident operand start at the contraction step times 2048. -/
theorem off1 : ∀ t : Fin cfg1.N, k1_off1 (grid1.coords t) = ![(t.val % 4) * 2048, 0] :=
  (by decide +kernel : ∀ t : Fin grid1.N, _)

section
variable (V : (c : Dev nD) → (b : Ref sig .tc) → Buf (Elt F) ((c : Thread nD τ).loc b))

/-! ## First region -/

/-- The matrix block at point t, at [r, p], is U at [k * 2048 + r, m * 1024 + p]. -/
theorem iblk0_0_apply (c : Dev nD) (t : Fin cfg0.N) (r : Fin 2048) (p : Fin 1024) :
    iblk0 V c 0 t (ix2 r p) = V c main_arg1 (ix2 (⟨(t.val % 4) * 2048 + r.val, by omega⟩ : Fin 8192)
      (⟨(t.val / 4) * 1024 + p.val, by have := t.isLt; have : cfg0.N = 32 := N_0; omega⟩ : Fin 8192)) := by
  obtain ⟨e0, e1⟩ := idx0_0 t
  show V c main_arg1 (((cfg0.win 0).blk t).view.emb (ix2 r p)) = _
  refine congrArg (V c main_arg1) ?_
  funext a; apply Fin.ext
  match a with
  | ⟨0, _⟩ => show win0_0.index t (0 : Fin 2) * 2048 + 1 * r.val = (t.val % 4) * 2048 + r.val; omega
  | ⟨1, _⟩ => show win0_0.index t (1 : Fin 2) * 1024 + 1 * p.val = (t.val / 4) * 1024 + p.val; omega

/-- The resident operand's block is the whole array. -/
theorem iblk0_1_apply (c : Dev nD) (t : Fin cfg0.N) (n : Fin 8192) (q : Fin 256) :
    iblk0 V c 1 t (ix2 n q) = V c main_arg0 (ix2 n q) := by
  obtain ⟨e0, e1⟩ := idx0_1 t
  show V c main_arg0 (((cfg0.win 1).blk t).view.emb (ix2 n q)) = _
  refine congrArg (V c main_arg0) ?_
  funext a; apply Fin.ext
  match a with
  | ⟨0, _⟩ => show win0_1.index t (0 : Fin 2) * 8192 + 1 * n.val = n.val; omega
  | ⟨1, _⟩ => show win0_1.index t (1 : Fin 2) * 256 + 1 * q.val = q.val; omega

/-- The weight column's block at point t, at [p, 0], is the column at [m * 1024 + p, 0]. -/
theorem iblk0_2_apply (c : Dev nD) (t : Fin cfg0.N) (p : Fin 1024) :
    iblk0 V c 2 t (ix2 p (0 : Fin 1)) = V c main_v11 (ix2 (⟨(t.val / 4) * 1024 + p.val, by have := t.isLt; have : cfg0.N = 32 := N_0; omega⟩ : Fin 8192) (0 : Fin 1)) := by
  obtain ⟨e0, e1⟩ := idx0_2 t
  show V c main_v11 (((cfg0.win 2).blk t).view.emb (ix2 p (0 : Fin 1))) = _
  refine congrArg (V c main_v11) ?_
  funext a; apply Fin.ext
  match a with
  | ⟨0, _⟩ => show win0_2.index t (0 : Fin 2) * 1024 + 1 * p.val = (t.val / 4) * 1024 + p.val; omega
  | ⟨1, _⟩ => show win0_2.index t (1 : Fin 2) * 1 + 1 * (0 : Fin 1).val = (0 : Fin 1).val; omega

/-! ## Second region -/

/-- The matrix block at point t, at [p, r], is U at [m * 1024 + p, k * 2048 + r]. -/
theorem iblk1_0_apply (c : Dev nD) (t : Fin cfg1.N) (p : Fin 1024) (r : Fin 2048) :
    iblk1 V c 0 t (ix2 p r) = V c main_arg1 (ix2 (⟨(t.val / 4) * 1024 + p.val, by have := t.isLt; have : cfg1.N = 32 := N_1; omega⟩ : Fin 8192)
      (⟨(t.val % 4) * 2048 + r.val, by omega⟩ : Fin 8192)) := by
  obtain ⟨e0, e1⟩ := idx1_0 t
  show V c main_arg1 (((cfg1.win 0).blk t).view.emb (ix2 p r)) = _
  refine congrArg (V c main_arg1) ?_
  funext a; apply Fin.ext
  match a with
  | ⟨0, _⟩ => show win1_0.index t (0 : Fin 2) * 1024 + 1 * p.val = (t.val / 4) * 1024 + p.val; omega
  | ⟨1, _⟩ => show win1_0.index t (1 : Fin 2) * 2048 + 1 * r.val = (t.val % 4) * 2048 + r.val; omega

/-- The resident operand's block is the whole intermediate array. -/
theorem iblk1_1_apply (c : Dev nD) (t : Fin cfg1.N) (n : Fin 8192) (q : Fin 256) :
    iblk1 V c 1 t (ix2 n q) = V c main_v12 (ix2 n q) := by
  obtain ⟨e0, e1⟩ := idx1_1 t
  show V c main_v12 (((cfg1.win 1).blk t).view.emb (ix2 n q)) = _
  refine congrArg (V c main_v12) ?_
  funext a; apply Fin.ext
  match a with
  | ⟨0, _⟩ => show win1_1.index t (0 : Fin 2) * 8192 + 1 * n.val = n.val; omega
  | ⟨1, _⟩ => show win1_1.index t (1 : Fin 2) * 256 + 1 * q.val = q.val; omega

end

end Cert.KernelIdeal.Gen

end
-- ==== Proof.PayIdeal.lean ====
/-
  The kernel's payloads read at an index, at the ideal values. Each payload of the two kernel functions is a term over
  the vectors loaded before it; here each is read at an output index `(p, q)` of the `[1024, 256]` block:
  the zero splat is `0`; the accumulating payload is the accumulator plus the sum, over the 2048 contraction coordinates,
  of the products of the two operands' elements (the bf16 truncations are the identity on extended reals, a shape cast
  to the same shape is the identity, and the matmul's own accumulator is the zero splat); the scaling payload is the
  accumulator times the `[1024, 1]` column's element of the same row.
-/
import proofs.«132790_j5755256177387_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdeal

open Cert.KernelIdeal Cert.KernelIdeal.Gen Idealize.ShloMosaic Idealize.ShloMosaic.ValueIdx

/-! ## The zero splats -/

/-- The first kernel's initial accumulator: the f32 zero word splat, cast to its own shape, is `0` everywhere. -/
theorem pay0_1_apply (p : Fin 1024) (q : Fin 256) : k0_pay1 (F := Ideal) (ix2 p q) = 0 := by
  unfold k0_pay1
  rw [shapeCast_self]
  exact Ideal.ofBits_zero_f32

/-- The second kernel's initial accumulator likewise. -/
theorem pay1_1_apply (p : Fin 1024) (q : Fin 256) : k1_pay1 (F := Ideal) (ix2 p q) = 0 := by
  unfold k1_pay1
  rw [shapeCast_self]
  exact Ideal.ofBits_zero_f32

/-! ## The first kernel's contraction

Both operands are contracted over their axis 0: at output index `(p, q)` and contraction coordinate `r` the left
operand is read at `(r, p)` and the right one at `(r, q)`. -/

theorem lhs0_0 (i : S1024x256.Idx) (k : dot_S2048x1024_S2048x256_S1024x256_0_0_1_1_n_n.contr.Idx) :
    (dot_S2048x1024_S2048x256_S1024x256_0_0_1_1_n_n.lhsIdx i k 0).val = (k ⟨0, by decide⟩).val :=
  dot_S2048x1024_S2048x256_S1024x256_0_0_1_1_n_n.lhsIdx_val_of_single rfl i k
theorem lhs0_1 (i : S1024x256.Idx) (k : dot_S2048x1024_S2048x256_S1024x256_0_0_1_1_n_n.contr.Idx) :
    (dot_S2048x1024_S2048x256_S1024x256_0_0_1_1_n_n.lhsIdx i k 1).val = (i 0).val := by
  unfold DotDims.lhsIdx
  rw [dif_neg (show ¬(1 : Fin S2048x1024.rank) ∈ dot_S2048x1024_S2048x256_S1024x256_0_0_1_1_n_n.lhsBatch by decide), dif_pos (show (1 : Fin S2048x1024.rank) ∈ dot_S2048x1024_S2048x256_S1024x256_0_0_1_1_n_n.lhsNonContracting by decide)]
  rfl
theorem rhs0_0 (i : S1024x256.Idx) (k : dot_S2048x1024_S2048x256_S1024x256_0_0_1_1_n_n.contr.Idx) :
    (dot_S2048x1024_S2048x256_S1024x256_0_0_1_1_n_n.rhsIdx i k 0).val = (k ⟨0, by decide⟩).val :=
  dot_S2048x1024_S2048x256_S1024x256_0_0_1_1_n_n.rhsIdx_val_of_single rfl i k
theorem rhs0_1 (i : S1024x256.Idx) (k : dot_S2048x1024_S2048x256_S1024x256_0_0_1_1_n_n.contr.Idx) :
    (dot_S2048x1024_S2048x256_S1024x256_0_0_1_1_n_n.rhsIdx i k 1).val = (i 1).val := by
  unfold DotDims.rhsIdx
  rw [dif_neg (show ¬(1 : Fin S2048x256.rank) ∈ dot_S2048x1024_S2048x256_S1024x256_0_0_1_1_n_n.rhsBatch by decide), dif_pos (show (1 : Fin S2048x256.rank) ∈ dot_S2048x1024_S2048x256_S1024x256_0_0_1_1_n_n.rhsNonContracting by decide)]
  rfl

/-- The accumulating payload of the first kernel at `(p, q)`: the accumulator there plus the sum over the 2048
    contraction coordinates of the products (the bf16 truncations are the identity on extended reals, the shape cast is to
    the same shape, and the matmul's own accumulator is the zero splat). -/
theorem pay0_2_apply (v3 : Vec Ideal S2048x1024 .f32) (v8 : Vec Ideal S2048x256 .f32) (v10 : Vec Ideal S1024x256 .f32) (p : Fin 1024) (q : Fin 256) :
    k0_pay2 v3 v8 v10 (ix2 p q) = v10 (ix2 p q) + ∑ r : Fin 2048, v3 (ix2 r p) * v8 (ix2 r q) := by
  unfold k0_pay2
  rw [shapeCast_self, addf_apply]
  refine congrArg (v10 (ix2 p q) + ·) ?_
  refine (Ideal.matmul_constant_zero_apply dot_S2048x1024_S2048x256_S1024x256_0_0_1_1_n_n none _ _ (ix2 p q)).trans ?_
  rw [← Equiv.sum_comp (contrEquiv1 dot_S2048x1024_S2048x256_S1024x256_0_0_1_1_n_n 2048 rfl rfl).symm]
  refine Finset.sum_congr rfl fun k _ => ?_
  have hk := contrEquiv1_symm_val dot_S2048x1024_S2048x256_S1024x256_0_0_1_1_n_n 2048 rfl rfl k
  have el : dot_S2048x1024_S2048x256_S1024x256_0_0_1_1_n_n.lhsIdx (ix2 p q) ((contrEquiv1 dot_S2048x1024_S2048x256_S1024x256_0_0_1_1_n_n 2048 rfl rfl).symm k) = ix2 k p := funext fun a => Fin.ext (by
    match a with
    | ⟨0, _⟩ => exact (lhs0_0 _ _).trans hk
    | ⟨1, _⟩ => exact lhs0_1 _ _)
  have er : dot_S2048x1024_S2048x256_S1024x256_0_0_1_1_n_n.rhsIdx (ix2 p q) ((contrEquiv1 dot_S2048x1024_S2048x256_S1024x256_0_0_1_1_n_n 2048 rfl rfl).symm k) = ix2 k q := funext fun a => Fin.ext (by
    match a with
    | ⟨0, _⟩ => exact (rhs0_0 _ _).trans hk
    | ⟨1, _⟩ => exact rhs0_1 _ _)
  rw [truncf_apply, truncf_apply, el, er]

/-! ## The second kernel's contraction

The left operand is contracted over its axis 1 and the right one over its axis 0: at output index `(p, q)` and
contraction coordinate `r` the left operand is read at `(p, r)` and the right one at `(r, q)`. -/

theorem lhs1_0 (i : S1024x256.Idx) (k : dot_S1024x2048_S2048x256_S1024x256_1_0_0_1_n_n.contr.Idx) :
    (dot_S1024x2048_S2048x256_S1024x256_1_0_0_1_n_n.lhsIdx i k 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs1_1 (i : S1024x256.Idx) (k : dot_S1024x2048_S2048x256_S1024x256_1_0_0_1_n_n.contr.Idx) :
    (dot_S1024x2048_S2048x256_S1024x256_1_0_0_1_n_n.lhsIdx i k 1).val = (k ⟨0, by decide⟩).val :=
  dot_S1024x2048_S2048x256_S1024x256_1_0_0_1_n_n.lhsIdx_val_of_single rfl i k
theorem rhs1_0 (i : S1024x256.Idx) (k : dot_S1024x2048_S2048x256_S1024x256_1_0_0_1_n_n.contr.Idx) :
    (dot_S1024x2048_S2048x256_S1024x256_1_0_0_1_n_n.rhsIdx i k 0).val = (k ⟨0, by decide⟩).val :=
  dot_S1024x2048_S2048x256_S1024x256_1_0_0_1_n_n.rhsIdx_val_of_single rfl i k
theorem rhs1_1 (i : S1024x256.Idx) (k : dot_S1024x2048_S2048x256_S1024x256_1_0_0_1_n_n.contr.Idx) :
    (dot_S1024x2048_S2048x256_S1024x256_1_0_0_1_n_n.rhsIdx i k 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The accumulating payload of the second kernel at `(p, q)`: the accumulator there plus the sum over the 2048
    contraction coordinates of the products. -/
theorem pay1_2_apply (v3 : Vec Ideal S1024x2048 .f32) (v8 : Vec Ideal S2048x256 .f32) (v11 : Vec Ideal S1024x256 .f32) (p : Fin 1024) (q : Fin 256) :
    k1_pay2 v3 v8 v11 (ix2 p q) = v11 (ix2 p q) + ∑ r : Fin 2048, v3 (ix2 p r) * v8 (ix2 r q) := by
  unfold k1_pay2
  rw [shapeCast_self, shapeCast_self, addf_apply]
  refine congrArg (v11 (ix2 p q) + ·) ?_
  refine (Ideal.matmul_constant_zero_apply dot_S1024x2048_S2048x256_S1024x256_1_0_0_1_n_n none _ _ (ix2 p q)).trans ?_
  rw [← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q) ((contrEquiv1 dot_S1024x2048_S2048x256_S1024x256_1_0_0_1_n_n 2048 rfl rfl).symm k) = ix2 p k := funext fun a => Fin.ext (by
    match a with
    | ⟨0, _⟩ => exact lhs1_0 _ _
    | ⟨1, _⟩ => exact (lhs1_1 _ _).trans hk)
  have er : dot_S1024x2048_S2048x256_S1024x256_1_0_0_1_n_n.rhsIdx (ix2 p q) ((contrEquiv1 dot_S1024x2048_S2048x256_S1024x256_1_0_0_1_n_n 2048 rfl rfl).symm k) = ix2 k q := funext fun a => Fin.ext (by
    match a with
    | ⟨0, _⟩ => exact (rhs1_0 _ _).trans hk
    | ⟨1, _⟩ => exact rhs1_1 _ _)
  rw [truncf_apply, truncf_apply, el, er]

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The scaling payload of the first kernel at `(p, q)`: the accumulator there times the column's element of row `p`. -/
theorem pay0_3_apply (v19 : Vec Ideal S1024x256 .f32) (v20 : Vec Ideal S1024x1 .f32) (p : Fin 1024) (q : Fin 256) :
    k0_pay3 v19 v20 (ix2 p q) = v19 (ix2 p q) * v20 (ix2 p (0 : Fin 1)) := by
  unfold k0_pay3
  rw [shapeCast_self, mulf_apply]
  exact congrArg (v19 (ix2 p q) * ·) (broadcastTo_a1_ab_apply v20 broadcasts_S1024x1_S1024x256 p q)

end Cert.KernelIdeal.PayIdeal

end
-- ==== Proof.Spec.lean ====
/-
  The spectral filter as one function of the argument arrays, in the two arrangements the two programs compute it.

  With x : [8192, 256], U : [8192, 8192] and a per-eigenvector weight lam : [8192], both programs compute
      out[m, q] = sum_i U[m, i] * (lam[i] * sum_n U[n, i] * x[n, q])
  on the extended reals.  The reference takes each sum whole (`outR`).  The kernel walks each contraction in four
  consecutive blocks of 2048 indices, adding each block's sum to an accumulator that starts at zero (`acc`), and
  multiplies by the weight on the right (`outK`).  The two agree because addition on the extended reals is
  commutative and associative with unit 0 and multiplication is commutative: no distributivity is used, so
  no finiteness is needed.
-/
import Idealize.ShloMosaic.PureOps.Ideal
import Idealize.ShloMosaic.Lib.ValueIdx

noncomputable section

open scoped BigOperators

namespace Cert.Spectral

open Idealize.ShloMosaic Idealize.ShloMosaic.ValueIdx

/-- A function on the 8192 contraction indices, extended by zero to every natural number. -/
def ext (f : Fin 8192 → EReal) (n : ℕ) : EReal := if h : n < 8192 then f ⟨n, h⟩ else 0

/-- The sum of `f` over block `k`: the 2048 consecutive indices from `k * 2048`. -/
def blk (f : Fin 8192 → EReal) (k : ℕ) : EReal := ∑ r : Fin 2048, ext f (k * 2048 + r.val)

/-- The accumulator after block `k`: zero plus block 0, then one block added per step. -/
def acc (f : Fin 8192 → EReal) : ℕ → EReal
  | 0 => 0 + blk f 0
  | k + 1 => acc f k + blk f (k + 1)

/-- The first stage's result as the kernel arranges it: the blocked contraction over `n`, times the weight. -/
def scaledK (x : (⟨2, ![8192, 256]⟩ : Shape).Idx → EReal) (U : (⟨2, ![8192, 8192]⟩ : Shape).Idx → EReal)
    (lam : Fin 8192 → EReal) (i : Fin 8192) (q : Fin 256) : EReal :=
  acc (fun n => U (ix2 n i) * x (ix2 n q)) 3 * lam i

/-- The kernel's arrangement of the result. -/
def outK (x : (⟨2, ![8192, 256]⟩ : Shape).Idx → EReal) (U : (⟨2, ![8192, 8192]⟩ : Shape).Idx → EReal)
    (lam : Fin 8192 → EReal) (m : Fin 8192) (q : Fin 256) : EReal :=
  acc (fun i => U (ix2 m i) * scaledK x U lam i q) 3

/-- The reference's arrangement of the result. -/
def outR (x : (⟨2, ![8192, 256]⟩ : Shape).Idx → EReal) (U : (⟨2, ![8192, 8192]⟩ : Shape).Idx → EReal)
    (lam : Fin 8192 → EReal) (m : Fin 8192) (q : Fin 256) : EReal :=
  ∑ i : Fin 8192, U (ix2 m i) * (lam i * ∑ n : Fin 8192, U (ix2 n i) * x (ix2 n q))

/-- Inside the range, the extension is the function. -/
theorem ext_val (f : Fin 8192 → EReal) (n : Fin 8192) : ext f n.val = f n := by
  unfold ext
  rw [dif_pos n.isLt]

/-- A block's sum, over the natural numbers below 2048. -/
theorem blk_range (f : Fin 8192 → EReal) (k : ℕ) :
    blk f k = ∑ r ∈ Finset.range 2048, ext f (k * 2048 + r) :=
  Fin.sum_univ_eq_sum_range (fun r => ext f (k * 2048 + r)) 2048

/-- The whole sum, over the natural numbers below 8192. -/
theorem sum_range (f : Fin 8192 → EReal) : ∑ n : Fin 8192, f n = ∑ n ∈ Finset.range 8192, ext f n := by
  rw [← Fin.sum_univ_eq_sum_range (fun n => ext f n) 8192]
  exact Finset.sum_congr rfl fun n _ => (ext_val f n).symm

/-- Four consecutive blocks of 2048 indices exhaust the 8192 indices, so the accumulator after the last block
    holds the whole sum: the range splits as 2048 + 2048 + 2048 + 2048 and the leading zero is the unit. -/
theorem acc_three (f : Fin 8192 → EReal) : acc f 3 = ∑ n : Fin 8192, f n := by
  have e : Finset.range 8192 = Finset.range (2048 + 2048 + 2048 + 2048) := rfl
  rw [sum_range, e, Finset.sum_range_add, Finset.sum_range_add, Finset.sum_range_add]
  show 0 + blk f 0 + blk f 1 + blk f 2 + blk f 3 = _
  rw [zero_add, blk_range, blk_range, blk_range, blk_range]
  refine congrArg₂ (· + ·) (congrArg₂ (· + ·) (congrArg₂ (· + ·) ?_ ?_) ?_) ?_ <;>
    exact Finset.sum_congr rfl fun r _ => congrArg (ext f) (by omega)

/-- The two arrangements agree: each blocked contraction is the whole sum, and the weight commutes past the
    inner sum. -/
theorem outK_eq_outR (x : (⟨2, ![8192, 256]⟩ : Shape).Idx → EReal) (U : (⟨2, ![8192, 8192]⟩ : Shape).Idx → EReal)
    (lam : Fin 8192 → EReal) (m : Fin 8192) (q : Fin 256) : outK x U lam m q = outR x U lam m q := by
  unfold outK outR scaledK
  rw [acc_three]
  refine Finset.sum_congr rfl fun i _ => ?_
  rw [acc_three, mul_comm (∑ n : Fin 8192, U (ix2 n i) * x (ix2 n q)) (lam i)]

end Cert.Spectral

end
-- ==== Proof.AccIdeal.lean ====
/-
  The kernels' payloads step the blocked accumulator. At a grid point (row tile `mi`, contraction step `k`) a kernel
  function loads a tile of `U` and the matching 2048 rows of the other operand; its accumulating payload, read at
  `(p, q)`, adds to the accumulator the sum of the products over those 2048 contraction indices, which is block `k`
  of the contraction for row `mi * 1024 + p`: the accumulator after step `k` is `acc f k` for that row's summand `f`.
  After the last step the first kernel's scaling payload multiplies by the weight of the row: the first stage's result.
-/
import proofs.«132790_j5755256177387_2_alg».proof.Proof.PayIdeal
import proofs.«132790_j5755256177387_2_alg».proof.Proof.Spec

noncomputable section

open scoped BigOperators

namespace Cert.KernelIdeal.PayIdeal

open Cert.KernelIdeal Cert.KernelIdeal.Gen Cert.Spectral Idealize.ShloMosaic Idealize.ShloMosaic.ValueIdx

/-- row `p` of row tile `mi`, and row `r` of contraction step `k`, as indices of the 8192 axis -/
def rowIdx (mi : Fin 8) (p : Fin 1024) : Fin 8192 := ⟨mi.val * 1024 + p.val, by omega⟩
def stepIdx (k : Fin 4) (r : Fin 2048) : Fin 8192 := ⟨k.val * 2048 + r.val, by omega⟩

/-! ## A block of the contraction, over the step's 2048 rows -/

/-- Block `k` of a contraction is the sum of the summand over the 2048 indices of step `k`: they are all below 8192,
    where the extension by zero is the function. -/
theorem blk_step (f : Fin 8192 → EReal) (k : Fin 4) : blk f k.val = ∑ r : Fin 2048, f (stepIdx k r) := by
  unfold blk
  exact Finset.sum_congr rfl fun r _ => ext_val f (stepIdx k r)

/-- Zero plus the sum of step 0's terms is the accumulator after block 0. -/
theorem acc_zero_of (f : Fin 8192 → EReal) (g : Fin 2048 → EReal) (h : ∀ r, g r = f (stepIdx 0 r)) :
    0 + ∑ r : Fin 2048, g r = acc f 0 := by
  show _ = 0 + blk f 0
  exact congrArg (0 + ·) ((Finset.sum_congr rfl fun r _ => h r).trans (blk_step f 0).symm)

/-- The accumulator after block `k` plus the sum of step `k + 1`'s terms is the accumulator after block `k + 1`. -/
theorem acc_succ_of (f : Fin 8192 → EReal) (k : ℕ) (hk : k + 1 < 4) (a : EReal) (g : Fin 2048 → EReal) (ha : a = acc f k)
    (h : ∀ r, g r = f (stepIdx ⟨k + 1, hk⟩ r)) : a + ∑ r : Fin 2048, g r = acc f (k + 1) := by
  show _ = acc f k + blk f (k + 1)
  rw [ha]
  exact congrArg (acc f k + ·) ((Finset.sum_congr rfl fun r _ => h r).trans (blk_step f ⟨k + 1, hk⟩).symm)

/-! ## Stage A (the first kernel): the `U` tile is read transposed -/

theorem accA_zero (U : (⟨2, ![8192, 8192]⟩ : Shape).Idx → EReal) (x : (⟨2, ![8192, 256]⟩ : Shape).Idx → EReal) (mi : Fin 8)
    (v3 : Vec Ideal S2048x1024 .f32) (v8 : Vec Ideal S2048x256 .f32)
    (h3 : ∀ (r : Fin 2048) (p : Fin 1024), v3 (ix2 r p) = U (ix2 (stepIdx 0 r) (rowIdx mi p)))
    (h8 : ∀ (r : Fin 2048) (q : Fin 256), v8 (ix2 r q) = x (ix2 (stepIdx 0 r) q)) (p : Fin 1024) (q : Fin 256) :
    k0_pay2 v3 v8 (k0_pay1 (F := Ideal)) (ix2 p q) = acc (fun n => U (ix2 n (rowIdx mi p)) * x (ix2 n q)) 0 := by
  rw [pay0_2_apply, pay0_1_apply]
  exact acc_zero_of (fun n => U (ix2 n (rowIdx mi p)) * x (ix2 n q)) _ fun r => by rw [h3, h8]

theorem accA_succ (U : (⟨2, ![8192, 8192]⟩ : Shape).Idx → EReal) (x : (⟨2, ![8192, 256]⟩ : Shape).Idx → EReal) (mi : Fin 8) (k : ℕ) (hk : k + 1 < 4)
    (v3 : Vec Ideal S2048x1024 .f32) (v8 : Vec Ideal S2048x256 .f32) (v10 : Vec Ideal S1024x256 .f32)
    (h3 : ∀ (r : Fin 2048) (p : Fin 1024), v3 (ix2 r p) = U (ix2 (stepIdx ⟨k + 1, hk⟩ r) (rowIdx mi p)))
    (h8 : ∀ (r : Fin 2048) (q : Fin 256), v8 (ix2 r q) = x (ix2 (stepIdx ⟨k + 1, hk⟩ r) q))
    (h10 : ∀ (p : Fin 1024) (q : Fin 256), v10 (ix2 p q) = acc (fun n => U (ix2 n (rowIdx mi p)) * x (ix2 n q)) k) (p : Fin 1024) (q : Fin 256) :
    k0_pay2 v3 v8 v10 (ix2 p q) = acc (fun n => U (ix2 n (rowIdx mi p)) * x (ix2 n q)) (k + 1) := by
  rw [pay0_2_apply]
  exact acc_succ_of (fun n => U (ix2 n (rowIdx mi p)) * x (ix2 n q)) k hk _ _ (h10 p q) fun r => by rw [h3, h8]

theorem outA_tile (U : (⟨2, ![8192, 8192]⟩ : Shape).Idx → EReal) (x : (⟨2, ![8192, 256]⟩ : Shape).Idx → EReal) (lam : Fin 8192 → EReal) (mi : Fin 8)
    (v19 : Vec Ideal S1024x256 .f32) (v20 : Vec Ideal S1024x1 .f32)
    (h19 : ∀ (p : Fin 1024) (q : Fin 256), v19 (ix2 p q) = acc (fun n => U (ix2 n (rowIdx mi p)) * x (ix2 n q)) 3)
    (h20 : ∀ p : Fin 1024, v20 (ix2 p (0 : Fin 1)) = lam (rowIdx mi p)) (p : Fin 1024) (q : Fin 256) :
    k0_pay3 v19 v20 (ix2 p q) = scaledK x U lam (rowIdx mi p) q := by
  rw [pay0_3_apply, h19, h20]
  rfl

/-! ## Stage B (the second kernel): the other operand is any array of 8192 rows of 256 -/

theorem accB_zero (U : (⟨2, ![8192, 8192]⟩ : Shape).Idx → EReal) (S : Fin 8192 → Fin 256 → EReal) (mi : Fin 8)
    (v3 : Vec Ideal S1024x2048 .f32) (v8 : Vec Ideal S2048x256 .f32)
    (h3 : ∀ (p : Fin 1024) (r : Fin 2048), v3 (ix2 p r) = U (ix2 (rowIdx mi p) (stepIdx 0 r)))
    (h8 : ∀ (r : Fin 2048) (q : Fin 256), v8 (ix2 r q) = S (stepIdx 0 r) q) (p : Fin 1024) (q : Fin 256) :
    k1_pay2 v3 v8 (k1_pay1 (F := Ideal)) (ix2 p q) = acc (fun i => U (ix2 (rowIdx mi p) i) * S i q) 0 := by
  rw [pay1_2_apply, pay1_1_apply]
  exact acc_zero_of (fun i => U (ix2 (rowIdx mi p) i) * S i q) _ fun r => by rw [h3, h8]

theorem accB_succ (U : (⟨2, ![8192, 8192]⟩ : Shape).Idx → EReal) (S : Fin 8192 → Fin 256 → EReal) (mi : Fin 8) (k : ℕ) (hk : k + 1 < 4)
    (v3 : Vec Ideal S1024x2048 .f32) (v8 : Vec Ideal S2048x256 .f32) (v11 : Vec Ideal S1024x256 .f32)
    (h3 : ∀ (p : Fin 1024) (r : Fin 2048), v3 (ix2 p r) = U (ix2 (rowIdx mi p) (stepIdx ⟨k + 1, hk⟩ r)))
    (h8 : ∀ (r : Fin 2048) (q : Fin 256), v8 (ix2 r q) = S (stepIdx ⟨k + 1, hk⟩ r) q)
    (h11 : ∀ (p : Fin 1024) (q : Fin 256), v11 (ix2 p q) = acc (fun i => U (ix2 (rowIdx mi p) i) * S i q) k) (p : Fin 1024) (q : Fin 256) :
    k1_pay2 v3 v8 v11 (ix2 p q) = acc (fun i => U (ix2 (rowIdx mi p) i) * S i q) (k + 1) := by
  rw [pay1_2_apply]
  exact acc_succ_of (fun i => U (ix2 (rowIdx mi p) i) * S i q) k hk _ _ (h11 p q) fun r => by rw [h3, h8]

end Cert.KernelIdeal.PayIdeal

end
-- ==== Proof.KI.Tiles.lean ====
/-
  The induction over grid points.  Both kernel regions walk the 32 points t = 4 m + k (row tile m, contraction step k)
  in order, and the accumulator is carried from each point to the next.  At step 0 the body clears it and adds the
  step's block of the contraction; at every later step it adds the step's block to what the point before left.  So
  after point n the accumulator holds, at [p, q], the blocked contraction `acc` over the first n % 4 + 1 blocks for
  row (n / 4) * 1024 + p.  At the last step of a row tile the first region stores the accumulator times the weight
  column (the first stage's result for the tile's rows), the second region the accumulator itself.
-/
import proofs.«132790_j5755256177387_2_alg».proof.Proof.KI.Pieces
import proofs.«132790_j5755256177387_2_alg».proof.Proof.KI.Blocks
import proofs.«132790_j5755256177387_2_alg».proof.Proof.AccIdeal

set_option maxRecDepth 16384

noncomputable section

namespace Cert.KernelIdeal.Gen

open Idealize.ShloMosaic Idealize.ShloMosaic.TcCoe
open Idealize.SL.Sem
open Idealize.ShloMosaic.Pipeline (Dat Cfg Window BodyObligation cellOf)
open Idealize.ShloMosaic.ValueIdx
open Cert.Spectral Cert.KernelIdeal.PayIdeal

/-! ## The rows a body loads from its resident operand -/

/-- The first body's 2048 rows at point t are rows k * 2048 .. of the operand. -/
theorem xsl0_rows (t : Fin cfg0.N) (kk : Fin 4) (hk : t.val % 4 = kk.val) (x1 : Vec Ideal S8192x256 .f32) (r : Fin 2048) (q : Fin 256) :
    xsl0 (grid0.coords t) x1 (ix2 r q) = x1 (ix2 (stepIdx kk r) q) := by
  show x1 ((Rect.unit (s := S8192x256) (k0_off1 (grid0.coords t)) S2048x256.size (k0_off1_inb (grid0.coords t))).idx (ix2 r q)) = _
  refine congrArg x1 ?_
  have e := off0 t
  funext a; apply Fin.ext
  match a with
  | ⟨0, _⟩ =>
    show k0_off1 (grid0.coords t) 0 + 1 * r.val = kk.val * 2048 + r.val
    rw [e]; show (t.val % 4) * 2048 + 1 * r.val = _; rw [hk]; omega
  | ⟨1, _⟩ =>
    show k0_off1 (grid0.coords t) 1 + 1 * q.val = q.val
    rw [e]; show 0 + 1 * q.val = _; omega

/-- The second body's likewise. -/
theorem xsl1_rows (t : Fin cfg1.N) (kk : Fin 4) (hk : t.val % 4 = kk.val) (x1 : Vec Ideal S8192x256 .f32) (r : Fin 2048) (q : Fin 256) :
    xsl1 (grid1.coords t) x1 (ix2 r q) = x1 (ix2 (stepIdx kk r) q) := by
  show x1 ((Rect.unit (s := S8192x256) (k1_off1 (grid1.coords t)) S2048x256.size (k1_off1_inb (grid1.coords t))).idx (ix2 r q)) = _
  refine congrArg x1 ?_
  have e := off1 t
  funext a; apply Fin.ext
  match a with
  | ⟨0, _⟩ =>
    show k1_off1 (grid1.coords t) 0 + 1 * r.val = kk.val * 2048 + r.val
    rw [e]; show (t.val % 4) * 2048 + 1 * r.val = _; rw [hk]; omega
  | ⟨1, _⟩ =>
    show k1_off1 (grid1.coords t) 1 + 1 * q.val = q.val
    rw [e]; show 0 + 1 * q.val = _; omega

section
variable (V : (c : Dev nD) → (b : Ref sig .tc) → Buf (Elt Ideal) ((c : Thread nD τ).loc b))

/-! ## The arrays as a region finds them, typed as arrays of extended reals -/

/-- x, the first argument. -/
abbrev xOf (c : Dev nD) : (⟨2, ![8192, 256]⟩ : Shape).Idx → EReal := V c main_arg0
/-- U, the second argument. -/
abbrev uOf (c : Dev nD) : (⟨2, ![8192, 8192]⟩ : Shape).Idx → EReal := V c main_arg1
/-- The weight column. -/
abbrev wOf (c : Dev nD) : (⟨2, ![8192, 1]⟩ : Shape).Idx → EReal := V c main_v11
/-- The intermediate array, the first region's output. -/
abbrev sOf (c : Dev nD) : (⟨2, ![8192, 256]⟩ : Shape).Idx → EReal := V c main_v12

/-! ## The blocks at a point, by row tile and contraction step -/

theorem blk0_0_at (c : Dev nD) (t : Fin cfg0.N) (mi : Fin 8) (kk : Fin 4) (hm : t.val / 4 = mi.val) (hk : t.val % 4 = kk.val)
    (r : Fin 2048) (p : Fin 1024) : iblk0 V c 0 t (ix2 r p) = uOf V c (ix2 (stepIdx kk r) (rowIdx mi p)) :=
  (iblk0_0_apply V c t r p).trans (congrArg (V c main_arg1) (congrArg₂ ix2
    (Fin.ext (by show (t.val % 4) * 2048 + r.val = kk.val * 2048 + r.val; rw [hk]))
    (Fin.ext (by show (t.val / 4) * 1024 + p.val = mi.val * 1024 + p.val; rw [hm]))))

theorem xsl0_at (c : Dev nD) (t : Fin cfg0.N) (kk : Fin 4) (hk : t.val % 4 = kk.val) (r : Fin 2048) (q : Fin 256) :
    xsl0 (grid0.coords t) (iblk0 V c 1 t) (ix2 r q) = xOf V c (ix2 (stepIdx kk r) q) :=
  (xsl0_rows t kk hk (iblk0 V c 1 t) r q).trans (iblk0_1_apply V c t (stepIdx kk r) q)

theorem blk0_2_at (c : Dev nD) (t : Fin cfg0.N) (mi : Fin 8) (hm : t.val / 4 = mi.val) (p : Fin 1024) :
    iblk0 V c 2 t (ix2 p (0 : Fin 1)) = wOf V c (ix2 (rowIdx mi p) (0 : Fin 1)) :=
  (iblk0_2_apply V c t p).trans (congrArg (V c main_v11) (congrArg₂ ix2
    (Fin.ext (by show (t.val / 4) * 1024 + p.val = mi.val * 1024 + p.val; rw [hm])) rfl))

theorem blk1_0_at (c : Dev nD) (t : Fin cfg1.N) (mi : Fin 8) (kk : Fin 4) (hm : t.val / 4 = mi.val) (hk : t.val % 4 = kk.val)
    (p : Fin 1024) (r : Fin 2048) : iblk1 V c 0 t (ix2 p r) = uOf V c (ix2 (rowIdx mi p) (stepIdx kk r)) :=
  (iblk1_0_apply V c t p r).trans (congrArg (V c main_arg1) (congrArg₂ ix2
    (Fin.ext (by show (t.val / 4) * 1024 + p.val = mi.val * 1024 + p.val; rw [hm]))
    (Fin.ext (by show (t.val % 4) * 2048 + r.val = kk.val * 2048 + r.val; rw [hk]))))

theorem xsl1_at (c : Dev nD) (t : Fin cfg1.N) (kk : Fin 4) (hk : t.val % 4 = kk.val) (r : Fin 2048) (q : Fin 256) :
    xsl1 (grid1.coords t) (iblk1 V c 1 t) (ix2 r q) = sOf V c (ix2 (stepIdx kk r) q) :=
  (xsl1_rows t kk hk (iblk1 V c 1 t) r q).trans (iblk1_1_apply V c t (stepIdx kk r) q)

/-! ## First region -/

/-- A later step: the body's accumulating payload on what the point before left is one more block. -/
theorem pay0_step (c : Dev nD) (t : Fin cfg0.N) (mi : Fin 8) (hm : t.val / 4 = mi.val) (k : ℕ) (hk : k + 1 < 4) (hkk : t.val % 4 = k + 1)
    (prev : Vec Ideal S1024x256 .f32)
    (ih : ∀ (p : Fin 1024) (q : Fin 256), prev (ix2 p q) = acc (fun k => uOf V c (ix2 k (rowIdx mi p)) * xOf V c (ix2 k q)) k)
    (p : Fin 1024) (q : Fin 256) :
    k0_pay2 (iblk0 V c 0 t) (xsl0 (grid0.coords t) (iblk0 V c 1 t)) prev (ix2 p q) = acc (fun k => uOf V c (ix2 k (rowIdx mi p)) * xOf V c (ix2 k q)) (k + 1) :=
  accA_succ (uOf V c) (xOf V c) mi k hk _ _ _
    (fun r p => blk0_0_at V c t mi ⟨k + 1, hk⟩ hm hkk r p) (fun r q => xsl0_at V c t ⟨k + 1, hk⟩ hkk r q) ih p q

set_option maxHeartbeats 1600000 in
/-- The accumulator after a point of a later step, whichever of the two later cases the point is in. -/
theorem acc0_later (c : Dev nD) (t : Fin cfg0.N) (h0 : ¬t.val % 4 = 0) (p : Fin 1024) (q : Fin 256) :
    (outsAt0 V c t.val t.isLt).2 (ix2 p q)
      = k0_pay2 (iblk0 V c 0 t) (xsl0 (grid0.coords t) (iblk0 V c 1 t)) (outsAt0 V c (t.val - 1) (Nat.lt_of_le_of_lt (Nat.sub_le _ _) t.isLt)).2 (ix2 p q) := by
  by_cases h1 : t.val % 4 = 3
  · rw [outsAt0_C V c t h0 h1]
    exact congrFun (soutC0_eq (F := Ideal) c (grid0.coords t) (ms0_0 t) (hs0_0 t) (ms0_1 t) (hs0_1 t) (ms0_2 t) (hs0_2 t) (ms0_3 t) (hs0_3 t) scM0_0 (Memref.isWhole_whole _) (nc00_of_ne t h0) ((hcond0_1 t).mpr h1) (iblk0 V c 0 t) (iblk0 V c 1 t) (iblk0 V c 2 t) (outsAt0 V c (t.val - 1) (Nat.lt_of_le_of_lt (Nat.sub_le _ _) t.isLt)).2) (ix2 p q)
  · rw [outsAt0_B V c t h0 h1]
    exact congrFun (soutB0_eq (F := Ideal) c (grid0.coords t) (ms0_0 t) (hs0_0 t) (ms0_1 t) (hs0_1 t) (ms0_2 t) (hs0_2 t) (ms0_3 t) (hs0_3 t) scM0_0 (Memref.isWhole_whole _) (nc00_of_ne t h0) (nc10_of_ne t h1) (iblk0 V c 0 t) (iblk0 V c 1 t) (iblk0 V c 2 t) (outsAt0 V c (t.val - 1) (Nat.lt_of_le_of_lt (Nat.sub_le _ _) t.isLt)).2) (ix2 p q)

set_option maxHeartbeats 1600000 in
/-- The accumulator after a point of step 0: zero plus block 0. -/
theorem acc0_first (c : Dev nD) (t : Fin cfg0.N) (h0 : t.val % 4 = 0) (mi : Fin 8) (hm : t.val / 4 = mi.val) (p : Fin 1024) (q : Fin 256) :
    (outsAt0 V c t.val t.isLt).2 (ix2 p q) = acc (fun k => uOf V c (ix2 k (rowIdx mi p)) * xOf V c (ix2 k q)) 0 := by
  rw [outsAt0_A V c t h0]
  refine (congrFun (soutA0_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (nc10_of_mod0 t h0) (iblk0 V c 0 t) (iblk0 V c 1 t) (iblk0 V c 2 t)) (ix2 p q)).trans ?_
  exact accA_zero (uOf V c) (xOf V c) mi _ _
    (fun r p => blk0_0_at V c t mi 0 hm h0 r p) (fun r q => xsl0_at V c t 0 h0 r q) p q

/-- The accumulator after point n, by row tile. -/
theorem acc0_inv_at (c : Dev nD) (n : ℕ) (hn : n < cfg0.N) (mi : Fin 8) (hm : n / 4 = mi.val) (p : Fin 1024) (q : Fin 256) :
    (outsAt0 V c n hn).2 (ix2 p q) = acc (fun k => uOf V c (ix2 k (rowIdx mi p)) * xOf V c (ix2 k q)) (n % 4) := by
  induction n using Nat.strong_induction_on generalizing p q with
  | _ n ih =>
    by_cases h0 : n % 4 = 0
    · rw [h0]
      exact acc0_first V c ⟨n, hn⟩ h0 mi hm p q
    · have hk : n % 4 - 1 + 1 < 4 := by omega
      have hkk : n % 4 = n % 4 - 1 + 1 := by omega
      have hprev : n - 1 < cfg0.N := Nat.lt_of_le_of_lt (Nat.sub_le _ _) hn
      have e2 : (n - 1) % 4 = n % 4 - 1 := by omega
      refine (acc0_later V c ⟨n, hn⟩ h0 p q).trans ?_
      refine (pay0_step V c ⟨n, hn⟩ mi hm (n % 4 - 1) hk hkk _ (fun p q => ?_) p q).trans (by rw [← hkk])
      exact (ih (n - 1) (by omega) hprev (by omega) p q).trans (by rw [e2])

/-- The first region's accumulator after point n is the blocked contraction over the first n % 4 + 1 blocks, for the
    rows of tile n / 4. -/
theorem acc0_inv (c : Dev nD) (n : ℕ) (hn : n < cfg0.N) (p : Fin 1024) (q : Fin 256) :
    (outsAt0 V c n hn).2 (ix2 p q)
      = Cert.Spectral.acc (fun k => uOf V c (ix2 k (Cert.KernelIdeal.PayIdeal.rowIdx ⟨n / 4, by have : cfg0.N = 32 := N_0; omega⟩ p)) * xOf V c (ix2 k q)) (n % 4) :=
  acc0_inv_at V c n hn ⟨n / 4, by have : cfg0.N = 32 := N_0; omega⟩ rfl p q

set_option maxHeartbeats 1600000 in
/-- The output tile written back at the last step of row tile t / 4: the first stage's result for its rows. -/
theorem tile0 (c : Dev nD) (t : Fin cfg0.N) (h3 : t.val % 4 = 3) (p : Fin 1024) (q : Fin 256) :
    (outsAt0 V c t.val t.isLt).1 (ix2 p q)
      = Cert.Spectral.scaledK (xOf V c) (uOf V c) (fun i => wOf V c (ix2 i (0 : Fin 1)))
          (⟨(t.val / 4) * 1024 + p.val, by have := t.isLt; have : cfg0.N = 32 := N_0; omega⟩ : Fin 8192) q := by
  have h0 : ¬t.val % 4 = 0 := by omega
  have hN : cfg0.N = 32 := N_0
  have hprev : t.val - 1 < cfg0.N := Nat.lt_of_le_of_lt (Nat.sub_le _ _) t.isLt
  rw [outsAt0_C V c t h0 h3]
  refine (congrFun (outC0_eq (F := Ideal) c (grid0.coords t) (ms0_0 t) (hs0_0 t) (ms0_1 t) (hs0_1 t) (ms0_2 t) (hs0_2 t) (ms0_3 t) (hs0_3 t) scM0_0 (Memref.isWhole_whole _) (nc00_of_ne t h0) ((hcond0_1 t).mpr h3) (iblk0 V c 0 t) (iblk0 V c 1 t) (iblk0 V c 2 t) (outsAt0 V c (t.val - 1) (Nat.lt_of_le_of_lt (Nat.sub_le _ _) t.isLt)).2) (ix2 p q)).trans ?_
  exact outA_tile (uOf V c) (xOf V c) (fun i => wOf V c (ix2 i (0 : Fin 1))) ⟨t.val / 4, by have := t.isLt; omega⟩ _ _
    (fun p q => pay0_step V c t ⟨t.val / 4, by have := t.isLt; omega⟩ rfl 2 (by omega) h3 _
      (fun p q => (acc0_inv_at V c (t.val - 1) hprev ⟨t.val / 4, by have := t.isLt; omega⟩ (by show (t.val - 1) / 4 = t.val / 4; omega) p q).trans
        (by rw [show (t.val - 1) % 4 = 2 by omega])) p q)
    (fun p => blk0_2_at V c t ⟨t.val / 4, by have := t.isLt; omega⟩ rfl p) p q

/-! ## Second region -/

theorem pay1_step (c : Dev nD) (t : Fin cfg1.N) (mi : Fin 8) (hm : t.val / 4 = mi.val) (k : ℕ) (hk : k + 1 < 4) (hkk : t.val % 4 = k + 1)
    (prev : Vec Ideal S1024x256 .f32)
    (ih : ∀ (p : Fin 1024) (q : Fin 256), prev (ix2 p q) = acc (fun i => uOf V c (ix2 (rowIdx mi p) i) * sOf V c (ix2 i q)) k)
    (p : Fin 1024) (q : Fin 256) :
    k1_pay2 (iblk1 V c 0 t) (xsl1 (grid1.coords t) (iblk1 V c 1 t)) prev (ix2 p q) = acc (fun i => uOf V c (ix2 (rowIdx mi p) i) * sOf V c (ix2 i q)) (k + 1) :=
  accB_succ (uOf V c) (fun i q => sOf V c (ix2 i q)) mi k hk _ _ _
    (fun p r => blk1_0_at V c t mi ⟨k + 1, hk⟩ hm hkk p r) (fun r q => xsl1_at V c t ⟨k + 1, hk⟩ hkk r q) ih p q

set_option maxHeartbeats 1600000 in
theorem acc1_later (c : Dev nD) (t : Fin cfg1.N) (h0 : ¬t.val % 4 = 0) (p : Fin 1024) (q : Fin 256) :
    (outsAt1 V c t.val t.isLt).2 (ix2 p q)
      = k1_pay2 (iblk1 V c 0 t) (xsl1 (grid1.coords t) (iblk1 V c 1 t)) (outsAt1 V c (t.val - 1) (Nat.lt_of_le_of_lt (Nat.sub_le _ _) t.isLt)).2 (ix2 p q) := by
  by_cases h1 : t.val % 4 = 3
  · rw [outsAt1_C V c t h0 h1]
    exact congrFun (soutC1_eq (F := Ideal) c (grid1.coords t) (ms1_0 t) (hs1_0 t) (ms1_1 t) (hs1_1 t) (ms1_2 t) (hs1_2 t) scM1_0 (Memref.isWhole_whole _) (nc01_of_ne t h0) ((hcond1_1 t).mpr h1) (iblk1 V c 0 t) (iblk1 V c 1 t) (outsAt1 V c (t.val - 1) (Nat.lt_of_le_of_lt (Nat.sub_le _ _) t.isLt)).2) (ix2 p q)
  · rw [outsAt1_B V c t h0 h1]
    exact congrFun (soutB1_eq (F := Ideal) c (grid1.coords t) (ms1_0 t) (hs1_0 t) (ms1_1 t) (hs1_1 t) (ms1_2 t) (hs1_2 t) scM1_0 (Memref.isWhole_whole _) (nc01_of_ne t h0) (nc11_of_ne t h1) (iblk1 V c 0 t) (iblk1 V c 1 t) (outsAt1 V c (t.val - 1) (Nat.lt_of_le_of_lt (Nat.sub_le _ _) t.isLt)).2) (ix2 p q)

set_option maxHeartbeats 1600000 in
/-- The accumulator after a point of step 0: zero plus block 0. -/
theorem acc1_first (c : Dev nD) (t : Fin cfg1.N) (h0 : t.val % 4 = 0) (mi : Fin 8) (hm : t.val / 4 = mi.val) (p : Fin 1024) (q : Fin 256) :
    (outsAt1 V c t.val t.isLt).2 (ix2 p q) = acc (fun i => uOf V c (ix2 (rowIdx mi p) i) * sOf V c (ix2 i q)) 0 := by
  rw [outsAt1_A V c t h0]
  refine (congrFun (soutA1_eq (F := Ideal) c (grid1.coords t) (ms1_0 t) (hs1_0 t) (ms1_1 t) (hs1_1 t) (ms1_2 t) (hs1_2 t) scM1_0 (Memref.isWhole_whole _) ((hcond1_0 t).mpr h0) (nc11_of_mod0 t h0) (iblk1 V c 0 t) (iblk1 V c 1 t)) (ix2 p q)).trans ?_
  exact accB_zero (uOf V c) (fun i q => sOf V c (ix2 i q)) mi _ _
    (fun p r => blk1_0_at V c t mi 0 hm h0 p r) (fun r q => xsl1_at V c t 0 h0 r q) p q

theorem acc1_inv_at (c : Dev nD) (n : ℕ) (hn : n < cfg1.N) (mi : Fin 8) (hm : n / 4 = mi.val) (p : Fin 1024) (q : Fin 256) :
    (outsAt1 V c n hn).2 (ix2 p q) = acc (fun i => uOf V c (ix2 (rowIdx mi p) i) * sOf V c (ix2 i q)) (n % 4) := by
  induction n using Nat.strong_induction_on generalizing p q with
  | _ n ih =>
    by_cases h0 : n % 4 = 0
    · rw [h0]
      exact acc1_first V c ⟨n, hn⟩ h0 mi hm p q
    · have hk : n % 4 - 1 + 1 < 4 := by omega
      have hkk : n % 4 = n % 4 - 1 + 1 := by omega
      have hprev : n - 1 < cfg1.N := Nat.lt_of_le_of_lt (Nat.sub_le _ _) hn
      have e2 : (n - 1) % 4 = n % 4 - 1 := by omega
      refine (acc1_later V c ⟨n, hn⟩ h0 p q).trans ?_
      refine (pay1_step V c ⟨n, hn⟩ mi hm (n % 4 - 1) hk hkk _ (fun p q => ?_) p q).trans (by rw [← hkk])
      exact (ih (n - 1) (by omega) hprev (by omega) p q).trans (by rw [e2])

/-- The second region's accumulator after point n is the blocked contraction over the first n % 4 + 1 blocks, for the
    rows of tile n / 4. -/
theorem acc1_inv (c : Dev nD) (n : ℕ) (hn : n < cfg1.N) (p : Fin 1024) (q : Fin 256) :
    (outsAt1 V c n hn).2 (ix2 p q)
      = Cert.Spectral.acc (fun i => uOf V c (ix2 (Cert.KernelIdeal.PayIdeal.rowIdx ⟨n / 4, by have : cfg1.N = 32 := N_1; omega⟩ p) i) * sOf V c (ix2 i q)) (n % 4) :=
  acc1_inv_at V c n hn ⟨n / 4, by have : cfg1.N = 32 := N_1; omega⟩ rfl p q

set_option maxHeartbeats 1600000 in
/-- The output tile written back at the last step of row tile t / 4: the accumulator after its fourth block. -/
theorem tile1 (c : Dev nD) (t : Fin cfg1.N) (h3 : t.val % 4 = 3) (p : Fin 1024) (q : Fin 256) :
    (outsAt1 V c t.val t.isLt).1 (ix2 p q)
      = Cert.Spectral.acc (fun i => uOf V c (ix2 (⟨(t.val / 4) * 1024 + p.val, by have := t.isLt; have : cfg1.N = 32 := N_1; omega⟩ : Fin 8192) i) * sOf V c (ix2 i q)) 3 := by
  have h0 : ¬t.val % 4 = 0 := by omega
  have hN : cfg1.N = 32 := N_1
  have hprev : t.val - 1 < cfg1.N := Nat.lt_of_le_of_lt (Nat.sub_le _ _) t.isLt
  rw [outsAt1_C V c t h0 h3]
  refine (congrFun (outC1_eq (F := Ideal) c (grid1.coords t) (ms1_0 t) (hs1_0 t) (ms1_1 t) (hs1_1 t) (ms1_2 t) (hs1_2 t) scM1_0 (Memref.isWhole_whole _) (nc01_of_ne t h0) ((hcond1_1 t).mpr h3) (iblk1 V c 0 t) (iblk1 V c 1 t) (outsAt1 V c (t.val - 1) (Nat.lt_of_le_of_lt (Nat.sub_le _ _) t.isLt)).2) (ix2 p q)).trans ?_
  exact pay1_step V c t ⟨t.val / 4, by have := t.isLt; omega⟩ rfl 2 (by omega) h3 _
    (fun p q => (acc1_inv_at V c (t.val - 1) hprev ⟨t.val / 4, by have := t.isLt; omega⟩ (by show (t.val - 1) / 4 = t.val / 4; omega) p q).trans
      (by rw [show (t.val - 1) % 4 = 2 by omega])) p q

end

end Cert.KernelIdeal.Gen

end
-- ==== Proof.KI.Final.lean ====
/-
  From the output tiles to the whole array. In each kernel region the output window's block at grid point `t` is the
  tile of 1024 rows from row `(t / 4) * 1024` of the `[8192, 256]` result array, and it is written back exactly at
  the last contraction step of its row tile (`t % 4 = 3`). So if at each such point the output tile's buffer holds
  those rows of one array `G`, each write-back writes its block of `G`; the eight tiles cover every row, so the array
  ends holding `G`.
-/
import proofs.«132790_j5755256177387_2_alg».proof.Proof.KI.Frame0
import proofs.«132790_j5755256177387_2_alg».proof.Proof.KI.Frame1
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The first region -/

/-- The output window's block index, decided over the grid: the row tile, and 0 along the columns. -/
theorem idx_out0 : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)

/-- Every index of the result array is in the block of the point that writes its row tile back: row `r` is in tile
    `r / 1024`, written back at point `4 * (r / 1024) + 3`. -/
theorem cover_out0 (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 32 := N_0
  obtain ⟨t, ht⟩ : ∃ t : Fin cfg0.N, t.val = 4 * ((i 0).val / 1024) + 3 := ⟨⟨4 * ((i 0).val / 1024) + 3, by omega⟩, rfl⟩
  obtain ⟨e0, e1⟩ := idx_out0 t
  refine ⟨t, (flush0_3 t).mpr (by omega), ?_⟩
  show i ∈ ((View.whole main_v12).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 256 ≤ (i 1).val ∧ (i 1).val < win0_3.index t (1 : Fin 2) * 256 + 256
    rw [e1]; omega

/-- if at every point that writes back (step 3 of a row tile) the output tile's buffer holds rows (t/4)*1024 … of `G`, the array ends holding `G` -/
theorem final0_of (V : (c : Dev nD) → (b : Ref sig .tc) → Buf (Elt F) ((c : Thread nD τ).loc b)) (c : Dev nD)
    (G : Buf (Elt F) ((cfg0.win 3).arr.view.loc (c.tc : Thread nD τ)))
    (H : ∀ t : Fin cfg0.N, t.val % 4 = 3 → ∀ (p : Fin 1024) (q : Fin 256),
      (outsAt0 V c t.val t.isLt).1 (ix2 p q) = G (ix2 ⟨(t.val / 4) * 1024 + p.val, by have := t.isLt; have : cfg0.N = 32 := N_0; omega⟩ q)) :
    (dat0 V c).arrAt 3 cfg0.N = G := by
  refine (dat0 V c).arrAt_eq_of_cover 3 G (fun t hf => ?_) cover_out0
  show (cfg0.win 3).cut (grid0.coords t) ((dat0 V c).after 3 t) = _
  rw [after0_3]
  have h3 : t.val % 4 = 3 := (flush0_3 t).mp hf
  obtain ⟨e0, e1⟩ := idx_out0 t
  funext y
  obtain ⟨p, q, rfl⟩ : ∃ (p : Fin 1024) (q : Fin 256), y = ix2 p q := ⟨y 0, y 1, eq_ix2 y⟩
  show (outsAt0 V c t.val t.isLt).1 (ix2 p q) = G (((cfg0.win 3).blk t).view.emb (ix2 p q))
  rw [H t h3 p q]
  refine congrArg G (funext fun a => Fin.ext ?_)
  match a with
  | ⟨0, _⟩ =>
    show t.val / 4 * 1024 + p.val = win0_3.index t (0 : Fin 2) * 1024 + 1 * p.val
    rw [e0]; omega
  | ⟨1, _⟩ =>
    show q.val = win0_3.index t (1 : Fin 2) * 256 + 1 * q.val
    rw [e1]; omega

/-! ## The second region -/

/-- The output window's block index, decided over the grid: the row tile, and 0 along the columns. -/
theorem idx_out1 : ∀ t : Fin cfg1.N, win1_2.index t (0 : Fin 2) = t.val / 4 ∧ win1_2.index t (1 : Fin 2) = 0 :=
  (by decide +kernel : ∀ t : Fin grid1.N, win1_2.index t (0 : Fin 2) = t.val / 4 ∧ win1_2.index t (1 : Fin 2) = 0)

/-- Every index of the result array is in the block of the point that writes its row tile back: row `r` is in tile
    `r / 1024`, written back at point `4 * (r / 1024) + 3`. -/
theorem cover_out1 (i : S8192x256.Idx) :
    ∃ t : Fin cfg1.N, (cfg1.win 2).flush t = true ∧ i ∈ ((cfg1.win 2).blk t).view.set := by
  have hi0 : (i 0).val < 8192 := (i 0).isLt
  have hi1 : (i 1).val < 256 := (i 1).isLt
  have hN : cfg1.N = 32 := N_1
  obtain ⟨t, ht⟩ : ∃ t : Fin cfg1.N, t.val = 4 * ((i 0).val / 1024) + 3 := ⟨⟨4 * ((i 0).val / 1024) + 3, by omega⟩, rfl⟩
  obtain ⟨e0, e1⟩ := idx_out1 t
  refine ⟨t, (flush1_2 t).mpr (by omega), ?_⟩
  show i ∈ ((View.whole main_v13).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e0]; omega
  | ⟨1, _⟩ =>
    show win1_2.index t (1 : Fin 2) * 256 ≤ (i 1).val ∧ (i 1).val < win1_2.index t (1 : Fin 2) * 256 + 256
    rw [e1]; omega

/-- if at every point that writes back (step 3 of a row tile) the output tile's buffer holds rows (t/4)*1024 … of `G`, the array ends holding `G` -/
theorem final1_of (V : (c : Dev nD) → (b : Ref sig .tc) → Buf (Elt F) ((c : Thread nD τ).loc b)) (c : Dev nD)
    (G : Buf (Elt F) ((cfg1.win 2).arr.view.loc (c.tc : Thread nD τ)))
    (H : ∀ t : Fin cfg1.N, t.val % 4 = 3 → ∀ (p : Fin 1024) (q : Fin 256),
      (outsAt1 V c t.val t.isLt).1 (ix2 p q) = G (ix2 ⟨(t.val / 4) * 1024 + p.val, by have := t.isLt; have : cfg1.N = 32 := N_1; omega⟩ q)) :
    (dat1 V c).arrAt 2 cfg1.N = G := by
  refine (dat1 V c).arrAt_eq_of_cover 2 G (fun t hf => ?_) cover_out1
  show (cfg1.win 2).cut (grid1.coords t) ((dat1 V c).after 2 t) = _
  rw [after1_2]
  have h3 : t.val % 4 = 3 := (flush1_2 t).mp hf
  obtain ⟨e0, e1⟩ := idx_out1 t
  funext y
  obtain ⟨p, q, rfl⟩ : ∃ (p : Fin 1024) (q : Fin 256), y = ix2 p q := ⟨y 0, y 1, eq_ix2 y⟩
  show (outsAt1 V c t.val t.isLt).1 (ix2 p q) = G (((cfg1.win 2).blk t).view.emb (ix2 p q))
  rw [H t h3 p q]
  refine congrArg G (funext fun a => Fin.ext ?_)
  match a with
  | ⟨0, _⟩ =>
    show t.val / 4 * 1024 + p.val = win1_2.index t (0 : Fin 2) * 1024 + 1 * p.val
    rw [e0]; omega
  | ⟨1, _⟩ =>
    show q.val = win1_2.index t (1 : Fin 2) * 256 + 1 * q.val
    rw [e1]; omega

end Cert.KernelIdeal.Gen

end
-- ==== Proof.RefValue.lean ====
/-
  The reference's side.  Its run ends with the result array at one composed term of the argument arrays; read at an
  index [m, q] that term is
      sum_i U[m, i] * (lam[i] * sum_n U[n, i] * x[n, q]),
  where x and U are the first two arguments and lam, the per-eigenvector weight, is a function of the last two that
  is kept whole here: the outer contraction reads U at [m, i] and the weighted stage at [i, q]; the weighted stage
  is a product of the weight, broadcast along q (so read at i), and the inner contraction; the inner contraction
  reads the transpose of U at [i, n], that is U at [n, i], and x at [n, q].  This is `Cert.Spectral.outR`.
-/
import proofs.«132790_j5755256177387_2_alg».proof.Defs
import proofs.«132790_j5755256177387_2_alg».proof.Proof.Gen.ReferenceIdeal.Run
import proofs.«132790_j5755256177387_2_alg».proof.Proof.Gen.ReferenceIdeal.Read
import proofs.«132790_j5755256177387_2_alg».proof.Proof.Spec

noncomputable section

open scoped BigOperators

open Idealize.ShloMosaic Idealize.ShloMosaic.TcCoe Idealize.SL.Sem Idealize.ShloMosaic.StableHlo Idealize.ShloMosaic.ValueIdx

namespace Cert.ReferenceIdeal.RefValue

open Cert.ReferenceIdeal Cert.ReferenceIdeal.Gen Cert.ReferenceIdeal.Value Cert.ReferenceIdeal.Read

/-- The per-eigenvector weight: the reference's term for it, as a function of the contents of its third and
    fourth arguments.  Nothing below looks inside it. -/
def lamR (a2 : FVec Ideal S8192 .f32) (a3 : FVec Ideal S15 .f32) : FVec Ideal S8192 .f32 :=
  val_main_v10 (F := Ideal) a2 a3

/-- The weight written out as the operations that compute it. -/
theorem lamR_eq (a2 : FVec Ideal S8192 .f32) (a3 : FVec Ideal S15 .f32) :
    lamR a2 a3 = Host.gather gather_S15_S8192x1_S8192_n_0_n_n_0_1_1 a3 (broadcastInDim S8192x1 ![0] bcast_S8192_S8192x1_0 (select (cmpi .slt (minsi (broadcastInDim S8192 ![] bcast_S_S8192 (id (constantI S_ 32 14#32))) (maxsi (broadcastInDim S8192 ![] bcast_S_S8192 (id (constantI S_ 32 0#32))) (fptosi 32 (Host.divf (F := Ideal) a2 (broadcastInDim S8192 ![] bcast_S_S8192 (constant (F := Ideal) S_ .f32 0x3E124925#32)))))) (broadcastInDim S8192 ![] bcast_S_S8192 (constantI S_ 32 0#32))) (addi (minsi (broadcastInDim S8192 ![] bcast_S_S8192 (id (constantI S_ 32 14#32))) (maxsi (broadcastInDim S8192 ![] bcast_S_S8192 (id (constantI S_ 32 0#32))) (fptosi 32 (Host.divf (F := Ideal) a2 (broadcastInDim S8192 ![] bcast_S_S8192 (constant (F := Ideal) S_ .f32 0x3E124925#32)))))) (broadcastInDim S8192 ![] bcast_S_S8192 (constantI S_ 32 15#32))) (minsi (broadcastInDim S8192 ![] bcast_S_S8192 (id (constantI S_ 32 14#32))) (maxsi (broadcastInDim S8192 ![] bcast_S_S8192 (id (constantI S_ 32 0#32))) (fptosi 32 (Host.divf (F := Ideal) a2 (broadcastInDim S8192 ![] bcast_S_S8192 (constant (F := Ideal) S_ .f32 0x3E124925#32)))))))) := rfl

/-- The reference run's result term is `outR` of the argument arrays, with the weight read at row `i`. -/
theorem result_eq (a0 : FVec Ideal S8192x256 .f32) (a1 : FVec Ideal S8192x8192 .f32) (a2 : FVec Ideal S8192 .f32) (a3 : FVec Ideal S15 .f32) :
    Host.dotGeneral (F := Ideal) dot_S8192x8192_S8192x256_S8192x256_1_0_0_1_n_n none a1 (mulf (broadcastInDim S8192x256 ![0, 1] bcast_S8192x1_S8192x256_0_1 (broadcastInDim S8192x1 ![0] bcast_S8192_S8192x1_0 (Host.gather gather_S15_S8192x1_S8192_n_0_n_n_0_1_1 a3 (broadcastInDim S8192x1 ![0] bcast_S8192_S8192x1_0 (select (cmpi .slt (minsi (broadcastInDim S8192 ![] bcast_S_S8192 (id (constantI S_ 32 14#32))) (maxsi (broadcastInDim S8192 ![] bcast_S_S8192 (id (constantI S_ 32 0#32))) (fptosi 32 (Host.divf (F := Ideal) a2 (broadcastInDim S8192 ![] bcast_S_S8192 (constant (F := Ideal) S_ .f32 0x3E124925#32)))))) (broadcastInDim S8192 ![] bcast_S_S8192 (constantI S_ 32 0#32))) (addi (minsi (broadcastInDim S8192 ![] bcast_S_S8192 (id (constantI S_ 32 14#32))) (maxsi (broadcastInDim S8192 ![] bcast_S_S8192 (id (constantI S_ 32 0#32))) (fptosi 32 (Host.divf (F := Ideal) a2 (broadcastInDim S8192 ![] bcast_S_S8192 (constant (F := Ideal) S_ .f32 0x3E124925#32)))))) (broadcastInDim S8192 ![] bcast_S_S8192 (constantI S_ 32 15#32))) (minsi (broadcastInDim S8192 ![] bcast_S_S8192 (id (constantI S_ 32 14#32))) (maxsi (broadcastInDim S8192 ![] bcast_S_S8192 (id (constantI S_ 32 0#32))) (fptosi 32 (Host.divf (F := Ideal) a2 (broadcastInDim S8192 ![] bcast_S_S8192 (constant (F := Ideal) S_ .f32 0x3E124925#32))))))))))) (Host.dotGeneral (F := Ideal) dot_S8192x8192_S8192x256_S8192x256_1_0_0_1_n_n none (transpose S8192x8192 [1, 0] a1 transposes_S8192x8192_S8192x8192_1_0) a0))
      = fun j => Cert.Spectral.outR a0 a1 (fun i => lamR a2 a3 (ix1 i)) (j 0) (j 1) := by
  refine (val_main_v16_eq (F := Ideal) a0 a1 a2 a3).trans ?_
  funext j
  obtain ⟨m, q, rfl⟩ : ∃ (m : Fin 8192) (q : Fin 256), j = ix2 m q := ⟨j 0, j 1, eq_ix2 j⟩
  rw [val_main_v16_apply]
  show _ = ∑ i : Fin 8192, a1 (ix2 m i) * (lamR a2 a3 (ix1 i) * ∑ n : Fin 8192, a1 (ix2 n i) * a0 (ix2 n q))
  refine Finset.sum_congr rfl fun i _ => ?_
  have hl : lidx_main_v16 (ix2 m q) i = ix2 m i := by
    funext a; match a with | ⟨0, _⟩ => rfl | ⟨1, _⟩ => rfl
  have hr : ridx_main_v16 (ix2 m q) i = ix2 i q := by
    funext a; match a with | ⟨0, _⟩ => rfl | ⟨1, _⟩ => rfl
  have hw : idx_main_v13 (idx_main_v14 (ix2 i q)) = ix1 i := by
    funext a; match a with | ⟨0, _⟩ => rfl
  rw [hl, hr, val_main_v15_apply, val_main_v14_apply, val_main_v13_apply, hw, val_main_v12_apply]
  refine congrArg (a1 (ix2 m i) * ·) (congrArg (lamR a2 a3 (ix1 i) * ·) ?_)
  refine Finset.sum_congr rfl fun n _ => ?_
  have h1 : idx_main_v11 (lidx_main_v12 (ix2 i q) n) = ix2 n i := by
    funext a; match a with | ⟨0, _⟩ => rfl | ⟨1, _⟩ => rfl
  have h2 : ridx_main_v12 (ix2 i q) n = ix2 n q := by
    funext a; match a with | ⟨0, _⟩ => rfl | ⟨1, _⟩ => rfl
  rw [val_main_v11_apply, h1, h2]

/-- Every weakly fair execution of the reference, on every device and from any memory with zero counters, ends
    with the result array at `outR` of the argument arrays' launch contents, the arguments unchanged. -/
theorem run_outR (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = (fun j : S8192x256.Idx => Cert.Spectral.outR (m ((c.tc : Thread nD τ).loc main_arg0)) (m ((c.tc : Thread nD τ).loc main_arg1)) (fun i => lamR (m ((c.tc : Thread nD τ).loc main_arg2)) (m ((c.tc : Thread nD τ).loc main_arg3)) (ix1 i)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq _ _ _ _), (h c).2⟩) (Value.run (F := Ideal) m ρ)

end Cert.ReferenceIdeal.RefValue

end
-- ==== Proof.KI.HostChain.lean ====
/-
  The weight column the kernel program's host operations compute is the reference's weight.  Before its first
  region the kernel program runs, operation for operation and constant for constant, the reference's chain from the
  third and fourth arguments to the per-eigenvector weight [8192], and then reshapes it to a column [8192, 1].  A
  reshape keeps row-major positions, and position i * 1 + 0 of the column is position i of the vector: the column at
  [i, 0] is the weight at i.  The first two arguments are written by no host operation.
-/
import proofs.«132790_j5755256177387_2_alg».proof.Proof.Gen.KernelIdeal.Regions
import proofs.«132790_j5755256177387_2_alg».proof.Proof.RefValue
import Idealize.ShloMosaic.Lib.Pipeline.Value
import Idealize.ShloMosaic.Lib.ValueIdx

noncomputable section

namespace Cert.KernelIdeal.Gen

open Idealize.ShloMosaic Idealize.ShloMosaic.TcCoe
open Idealize.SL.Sem
open Idealize.ShloMosaic.StableHlo
open Idealize.ShloMosaic.ValueIdx

/-- The kernel program's chain of host operations from the two weight arguments to the weight vector. -/
def lamK (a2 : FVec Ideal S8192 .f32) (a3 : FVec Ideal S15 .f32) : FVec Ideal S8192 .f32 :=
  Host.gather gather_S15_S8192x1_S8192_n_0_n_n_0_1_1 a3 (broadcastInDim S8192x1 ![0] bcast_S8192_S8192x1_0 (select (cmpi .slt (minsi (broadcastInDim S8192 ![] bcast_S_S8192 (id (constantI S_ 32 14#32))) (maxsi (broadcastInDim S8192 ![] bcast_S_S8192 (id (constantI S_ 32 0#32))) (fptosi 32 (Host.divf (F := Ideal) a2 (broadcastInDim S8192 ![] bcast_S_S8192 (constant (F := Ideal) S_ .f32 0x3E124925#32)))))) (broadcastInDim S8192 ![] bcast_S_S8192 (constantI S_ 32 0#32))) (addi (minsi (broadcastInDim S8192 ![] bcast_S_S8192 (id (constantI S_ 32 14#32))) (maxsi (broadcastInDim S8192 ![] bcast_S_S8192 (id (constantI S_ 32 0#32))) (fptosi 32 (Host.divf (F := Ideal) a2 (broadcastInDim S8192 ![] bcast_S_S8192 (constant (F := Ideal) S_ .f32 0x3E124925#32)))))) (broadcastInDim S8192 ![] bcast_S_S8192 (constantI S_ 32 15#32))) (minsi (broadcastInDim S8192 ![] bcast_S_S8192 (id (constantI S_ 32 14#32))) (maxsi (broadcastInDim S8192 ![] bcast_S_S8192 (id (constantI S_ 32 0#32))) (fptosi 32 (Host.divf (F := Ideal) a2 (broadcastInDim S8192 ![] bcast_S_S8192 (constant (F := Ideal) S_ .f32 0x3E124925#32))))))))

/-- It is the reference's chain: the same operations on the same constants. -/
theorem lamK_eq (a2 : FVec Ideal S8192 .f32) (a3 : FVec Ideal S15 .f32) :
    lamK a2 a3 = Cert.ReferenceIdeal.RefValue.lamR a2 a3 := rfl

/-- The column of a vector: the reshape [8192] → [8192, 1] at [i, 0] is the vector at i. -/
theorem column_apply (w : FVec Ideal S8192 .f32) (i : Fin 8192) :
    shapeCast S8192x1 w shapeCasts_S8192_S8192x1 (ix2 i (0 : Fin 1)) = w (ix1 i) :=
  shapeCast_apply w shapeCasts_S8192_S8192x1 (ix2 i (0 : Fin 1)) (ix1 i) (by
    rw [Shape.rowMajor_val_one, Shape.rowMajor_val_two]
    show i.val = i.val * 1 + 0
    omega)

variable (m : (ℓ : Loc nD τ sig) → Buf (Elt Ideal) ℓ)

/-- When the first region is entered, the weight column's array holds the reshaped chain of the launch contents
    of the third and fourth arguments. -/
theorem V3_main_v11_eq (c : Dev nD) :
    (V3 m c main_v11 : S8192x1.Idx → Elt Ideal .f32)
      = shapeCast S8192x1 (lamK (m ((c : Thread nD τ).loc main_arg2)) (m ((c : Thread nD τ).loc main_arg3))) shapeCasts_S8192_S8192x1 := by
  show StableHlo.after hostOps0_2 (StableHlo.after hostOps0_1 (StableHlo.after hostOps0 (V0 m c))) (Proc.devRef .tc main_v11) = _
  simp only [hostOps0, hostOps0_1, hostOps0_2]
  after_results_simp
  rfl

/-- The weight column at [i, 0], as the first region finds it, is the reference's weight at i. -/
theorem V3_main_v11 (c : Dev nD) (i : Fin 8192) :
    V3 m c main_v11 (ix2 i (0 : Fin 1))
      = Cert.ReferenceIdeal.RefValue.lamR (m ((c : Thread nD τ).loc main_arg2)) (m ((c : Thread nD τ).loc main_arg3)) (ix1 i) := by
  refine (congrFun (V3_main_v11_eq m c) (ix2 i (0 : Fin 1))).trans ?_
  rw [lamK_eq]
  exact column_apply _ i

/-- No host operation writes the first argument. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
/-- No host operation writes the second argument. -/
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl

end Cert.KernelIdeal.Gen

end
-- ==== Proof.KI.Value.lean ====
/-
  The result of the idealized kernel program as one function of the argument arrays.

  After the run every unscoped buffer holds the last boundary's value.  The second region's output array is the
  blocked contraction of U's rows with the first region's output (tile by tile, each tile written back at the last
  step of its row tile); the first region's output is the blocked contraction of U's columns with x, times the
  weight column; the weight column is the host glue's value, which is the reference's weight.  Composed, the
  result is `Cert.Spectral.outK` of the three argument arrays and that weight.
-/
import proofs.«132790_j5755256177387_2_alg».proof.Proof.KI.Run
import proofs.«132790_j5755256177387_2_alg».proof.Proof.KI.Tiles
import proofs.«132790_j5755256177387_2_alg».proof.Proof.KI.Final
import proofs.«132790_j5755256177387_2_alg».proof.Proof.KI.HostChain

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The weight of eigenvector `i`, from the launch contents of the two arguments it is computed from. -/
def lamOf (c : Dev nD) (i : Fin 8192) : EReal :=
  Cert.ReferenceIdeal.RefValue.lamR (m ((c : Thread nD τ).loc main_arg2)) (m ((c : Thread nD τ).loc main_arg3)) (ix1 i)

/-- What the first region leaves in its output array: the scaled spectral coefficients. -/
theorem E4_main_v12 (c : Dev nD) :
    sOf (E4 m) c
      = fun j => Cert.Spectral.scaledK (m ((c : Thread nD τ).loc main_arg0)) (m ((c : Thread nD τ).loc main_arg1)) (lamOf m c) (j 0) (j 1) := by
  have hx : xOf (E3 m) c = m ((c : Thread nD τ).loc main_arg0) := V3_main_arg0 m c
  have hu : uOf (E3 m) c = m ((c : Thread nD τ).loc main_arg1) := V3_main_arg1 m c
  have hw : (fun i : Fin 8192 => wOf (E3 m) c (ix2 i (0 : Fin 1))) = lamOf m c := funext fun i => V3_main_v11 m c i
  refine ((Wf4_arr m c 3).trans (final0_of (E3 m) c _ fun t h3 p q => ?_))
  refine (tile0 (E3 m) c t h3 p q).trans ?_
  rw [hx, hu, hw]

/-- The second region reads U as launched. -/
theorem E4_main_arg1 (c : Dev nD) : uOf (E4 m) c = m ((c : Thread nD τ).loc main_arg1) :=
  (Wf4_arr m c 0).trans ((((dat0 (E3 m) c).arrAt_in 0 rfl _).trans (A_eq0 (E3 m) c 0)).trans (V3_main_arg1 m c))

/-- THE RESULT: the result buffer after the run is the kernel's arrangement of the spectral filter. -/
theorem Wf5_main_v13 (c : Dev nD) :
    Wf5 m c (Proc.devRef .tc main_v13)
      = fun j => Cert.Spectral.outK (m ((c : Thread nD τ).loc main_arg0)) (m ((c : Thread nD τ).loc main_arg1)) (lamOf m c) (j 0) (j 1) := by
  refine ((Wf5_arr m c 2).trans (final1_of (E4 m) c _ fun t h3 p q => ?_))
  refine (tile1 (E4 m) c t h3 p q).trans ?_
  rw [E4_main_arg1 m c, E4_main_v12 m c]
  rfl

/-- The idealized kernel's run with its result named. -/
theorem run_outK : θ_run defs (onTc (τ := τ) (main (F := Ideal))) ⟨m, fun _ => 0, ρ⟩ (fun r => ∀ c : Dev nD,
      r.2.mem ((c.tc : Thread nD τ).loc main_v13) = (fun j : S8192x256.Idx => Cert.Spectral.outK (m ((c : Thread nD τ).loc main_arg0)) (m ((c : Thread nD τ).loc main_arg1)) (lamOf m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v13 (by decide))).trans (Wf5_main_v13 m c),
     (h c _ (mem_uc main_arg0 (by decide))).trans (Wf5_main_arg0 m c),
     (h c _ (mem_uc main_arg1 (by decide))).trans (Wf5_main_arg1 m c),
     (h c _ (mem_uc main_arg2 (by decide))).trans (Wf5_main_arg2 m c),
     (h c _ (mem_uc main_arg3 (by decide))).trans (Wf5_main_arg3 m c),
     (h c _ (mem_uc main_arg4 (by decide))).trans (Wf5_main_arg4 m c)⟩) (run_all m ρ)

end Cert.KernelIdeal.Gen

end
-- ==== Proof.lean ====
/-
  The certificate of a spectral graph filter: out = U · diag(lam) · (Uᵀ · x), with x : [8192, 256], U : [8192, 8192]
  and lam : [8192] a per-eigenvector weight gathered from a 15-entry table by the bin of a normalised eigenvalue.

  The kernel program computes it in two tiled matrix products on an 8 × 4 grid each (row tile, contraction step),
  each accumulating the contraction in a scratch over four steps of 2048 indices from zero: the first contracts
  U's rows against x and, at its last step, scales the tile by the weight column; the second contracts U's columns
  against the first's result.  The reference computes the same with two whole matrix products and the weight on the
  left.  The weight is computed by the same host operations in both programs.

  frames — the kernel program, at the word-level and at the ideal instance alike, runs to the end without a fault and
    leaves its arguments unchanged: each region's body is run once per case of its two branches on the contraction
    step, the accumulator is carried from grid point to grid point in the region's invariant, and the regions are
    chained through the host operations between them; the reference's frame is its run with the result dropped.
  preserves — the idealization rewrote no operation.
  algebraic — at the ideal instance the kernel's result is `Cert.Spectral.outK` of the arguments and the reference's is
    `Cert.Spectral.outR`; they agree on the extended reals because a sum may be taken in consecutive blocks starting
    from zero (addition is associative and commutative with unit 0) and multiplication is commutative.  No
    distributivity, hence no finiteness of the inputs, is used.
-/
import proofs.«132790_j5755256177387_2_alg».proof.Defs
import proofs.«132790_j5755256177387_2_alg».proof.Proof.Gen.Kernel
import proofs.«132790_j5755256177387_2_alg».proof.Proof.Gen.KernelIdeal
import proofs.«132790_j5755256177387_2_alg».proof.Proof.Gen.ReferenceIdeal
import proofs.«132790_j5755256177387_2_alg».proof.Proof.Gen.Pre_finite_inputs
import proofs.«132790_j5755256177387_2_alg».proof.Proof.KB.Run
import proofs.«132790_j5755256177387_2_alg».proof.Proof.KI.Value
import proofs.«132790_j5755256177387_2_alg».proof.Proof.RefValue
import proofs.«132790_j5755256177387_2_alg».proof.Proof.Spec

noncomputable section

namespace Cert.Proof

open Idealize.ShloMosaic Idealize.ShloMosaic.TcCoe Idealize.SL.Sem

/-- The word-level kernel program runs and leaves its arguments unchanged. -/
theorem frame_k [Cert.Kernel.Facts] [Cert.Pre_finite_inputs.Facts] : Cert.frame_Kernel :=
  fun m ρ _ => Cert.Kernel.Gen.frame_hand (F := Bits) m ρ

/-- So does its idealization. -/
theorem frame_ki [Cert.KernelIdeal.Facts] [Cert.Pre_finite_inputs.Facts] : Cert.frame_KernelIdeal :=
  fun m ρ _ => Cert.KernelIdeal.Gen.frame_hand (F := Ideal) m ρ

/-- The reference's frame: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- At the ideal instance both programs end with the spectral filter of the arguments: the kernel's blocked
    arrangement and the reference's whole sums are one function. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Gen.run_outK m ρ, ?_⟩
  refine (θ_run Cert.ReferenceIdeal.defs _ _).mono (fun _ h c => ⟨(h c).1.trans ?_, (h c).2⟩)
    (Cert.ReferenceIdeal.RefValue.run_outR m' ρ')
  rw [(hagree c).1, (hagree c).2.1, (hagree c).2.2.1, (hagree c).2.2.2.1]
  funext j
  exact (Cert.Spectral.outK_eq_outR _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
